-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x256 : Shape := ⟨3, ![4, 512, 256]⟩
abbrev S256 : Shape := ⟨1, ![256]⟩
abbrev S16x256 : Shape := ⟨2, ![16, 256]⟩
abbrev S32x1 : Shape := ⟨2, ![32, 1]⟩
abbrev S32 : Shape := ⟨1, ![32]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S16x256 .f32) (main_arg8 : FVec F S32x1 .f32) (main_arg9 : FVec F S32 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S32x1 .f32 := Host.absf main_arg8
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S16x256 .f32) (main_arg7 : FVec F S16x256 .f32) (main_arg8 : FVec F S32x1 .f32) (main_arg9 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S16x256 .f32 := Host.absf main_arg6
  let main_cst_10 : FVec F S_ .f32 := constant S_ .f32 0x7F800000#32
  let main_v30 : FVec F S16x256 .f32 := broadcastInDim S16x256 ![] bcast_S_S16x256 main_cst_10
  let main_v31 : IVec S16x256 1 := cmpf .olt main_v29 main_v30
  let main_c_11 : IVec S_ 1 := constantI S_ 1 1#1
  let main_v32 : IVec S_ 1 := (fun x v => Host.reduce IntOp.andi x v reducesTo_S16x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x512x256 .f32) (main_arg1 : FVec F S4x512x256 .f32) (main_arg2 : FVec F S256 .f32) (main_arg3 : FVec F S256 .f32) (main_arg4 : FVec F S256 .f32) (main_arg5 : FVec F S256 .f32) (main_arg6 : FVec F S16x256 .f32) (main_arg7 : FVec F S16x256 .f32) (main_arg8 : FVec F S32x1 .f32) (main_arg9 : FVec F S32 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x512x256 .f32 := Host.absf main_arg1
  let main_cst_0 : FVec F S_ .f32 := constant S_ .f32 0x7F800000#32
  let main_v5 : FVec F S4x512x256 .f32 := broadcastInDim S4x512x256 ![] bcast_S_S4x512x256 main_cst_0
  let main_v6 : IVec S4x512x256 1 := cmpf .olt main_v4 main_v5
  let main_c_1 : IVec S_ 1 := constantI S_ 1 1#1
  let main_v7 : IVec S_ 1 := (fun x v => Host.reduce IntOp.andi x v reducesTo_S4x512x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4x512x256 : Shape := ⟨3, ![4, 512, 256]⟩
abbrev S256 : Shape := ⟨1, ![256]⟩
abbrev S16x256 : Shape := ⟨2, ![16, 256]⟩
abbrev S32x1 : Shape := ⟨2, ![32, 1]⟩
abbrev S32 : Shape := ⟨1, ![32]⟩
abbrev S4x512x16 : Shape := ⟨3, ![4, 512, 16]⟩
abbrev S1x512x256 : Shape := ⟨3, ![1, 512, 256]⟩
abbrev S1x512x16 : Shape := ⟨3, ![1, 512, 16]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x16 : Shape := ⟨2, ![256, 16]⟩
abbrev S512x16 : Shape := ⟨2, ![512, 16]⟩
abbrev S128x128 : Shape := ⟨2, ![128, 128]⟩
abbrev S_ : Shape := ⟨0, ![]⟩
abbrev S1x32 : Shape := ⟨2, ![1, 32]⟩
abbrev S128x1x128x1 : Shape := ⟨4, ![128, 1, 128, 1]⟩
abbrev S1x1x1x32 : Shape := ⟨4, ![1, 1, 1, 32]⟩
abbrev S128x1x128x32 : Shape := ⟨4, ![128, 1, 128, 32]⟩
abbrev S128x4096 : Shape := ⟨2, ![128, 4096]⟩
abbrev S128x32 : Shape := ⟨2, ![128, 32]⟩
abbrev S4096 : Shape := ⟨1, ![4096]⟩
abbrev S1x4096 : Shape := ⟨2, ![1, 4096]⟩
abbrev S4x512x16384 : Shape := ⟨3, ![4, 512, 16384]⟩
abbrev S1x128x16 : Shape := ⟨3, ![1, 128, 16]⟩
abbrev S1x512x4096 : Shape := ⟨3, ![1, 512, 4096]⟩
abbrev S128x16 : Shape := ⟨2, ![128, 16]⟩
abbrev S16x128 : Shape := ⟨2, ![16, 128]⟩
abbrev S512x128 : Shape := ⟨2, ![512, 128]⟩
abbrev S512x4096 : Shape := ⟨2, ![512, 4096]⟩
abbrev S4x512x512x32 : Shape := ⟨4, ![4, 512, 512, 32]⟩

abbrev nBuf : Space → Nat
  | .hbm => 34
  | .vmem => 22
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S16x256, .f32⟩
  | .hbm, ⟨7, _⟩ => ⟨S16x256, .f32⟩
  | .hbm, ⟨8, _⟩ => ⟨S32x1, .f32⟩
  | .hbm, ⟨9, _⟩ => ⟨S32, .f32⟩
  | .hbm, ⟨10, _⟩ => ⟨S4x512x16, .f32⟩
  | .hbm, ⟨11, _⟩ => ⟨S4x512x16, .f32⟩
  | .hbm, ⟨12, _⟩ => ⟨S32, .f32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .f32⟩
  | .hbm, ⟨20, _⟩ => ⟨S1x32, .f32⟩
  | .hbm, ⟨21, _⟩ => ⟨S128x1x128x1, .f32⟩
  | .hbm, ⟨22, _⟩ => ⟨S1x1x1x32, .f32⟩
  | .hbm, ⟨23, _⟩ => ⟨S128x1x128x32, .f32⟩
  | .hbm, ⟨24, _⟩ => ⟨S128x1x128x32, .f32⟩
  | .hbm, ⟨25, _⟩ => ⟨S128x1x128x32, .f32⟩
  | .hbm, ⟨26, _⟩ => ⟨S128x4096, .f32⟩
  | .hbm, ⟨27, _⟩ => ⟨S128x4096, .bf16⟩
  | .hbm, ⟨28, _⟩ => ⟨S1x32, .f32⟩
  | .hbm, ⟨29, _⟩ => ⟨S128x32, .f32⟩
  | .hbm, ⟨30, _⟩ => ⟨S4096, .f32⟩
  | .hbm, ⟨31, _⟩ => ⟨S1x4096, .f32⟩
  | .hbm, ⟨32, _⟩ => ⟨S4x512x16384, .f32⟩
  | .hbm, ⟨33, _⟩ => ⟨S4x512x512x32, .f32⟩
  | .local _ .vmem, ⟨0, _⟩ => ⟨S1x512x256, .f32⟩
  | .local _ .vmem, ⟨1, _⟩ => ⟨S1x512x256, .f32⟩
  | .local _ .vmem, ⟨2, _⟩ => ⟨S256, .f32⟩
  | .local _ .vmem, ⟨3, _⟩ => ⟨S256, .f32⟩
  | .local _ .vmem, ⟨4, _⟩ => ⟨S16x256, .f32⟩
  | .local _ .vmem, ⟨5, _⟩ => ⟨S1x512x16, .f32⟩
  | .local _ .vmem, ⟨6, _⟩ => ⟨S1x512x16, .f32⟩
  | .local _ .vmem, ⟨7, _⟩ => ⟨S1x512x256, .f32⟩
  | .local _ .vmem, ⟨8, _⟩ => ⟨S1x512x256, .f32⟩
  | .local _ .vmem, ⟨9, _⟩ => ⟨S256, .f32⟩
  | .local _ .vmem, ⟨10, _⟩ => ⟨S256, .f32⟩
  | .local _ .vmem, ⟨11, _⟩ => ⟨S16x256, .f32⟩
  | .local _ .vmem, ⟨12, _⟩ => ⟨S1x512x16, .f32⟩
  | .local _ .vmem, ⟨13, _⟩ => ⟨S1x512x16, .f32⟩
  | .local _ .vmem, ⟨14, _⟩ => ⟨S1x512x16, .f32⟩
  | .local _ .vmem, ⟨15, _⟩ => ⟨S1x512x16, .f32⟩
  | .local _ .vmem, ⟨16, _⟩ => ⟨S1x128x16, .f32⟩
  | .local _ .vmem, ⟨17, _⟩ => ⟨S1x128x16, .f32⟩
  | .local _ .vmem, ⟨18, _⟩ => ⟨S128x4096, .bf16⟩
  | .local _ .vmem, ⟨19, _⟩ => ⟨S1x4096, .f32⟩
  | .local _ .vmem, ⟨20, _⟩ => ⟨S1x512x4096, .f32⟩
  | .local _ .vmem, ⟨21, _⟩ => ⟨S1x512x4096, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x128x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S128x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  broadcasts_S512x1_S512x256 : S512x1.Broadcasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  transposes_S16x256_p1_0_S256x16 : S16x256.Transposes [1, 0] S256x16
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  shapeCasts_S512x16_S1x512x16 : S512x16.ShapeCasts S1x512x16
  shapeCasts_S32x1_S32 : S32x1.ShapeCasts S32
  bcast_S_S128x128 : S_.BroadcastsInDim S128x128 (![] : Fin 0 → Fin S128x128.rank)
  shapeCasts_S32_S1x32 : S32.ShapeCasts S1x32
  bcast_S128x128_S128x1x128x1_0_2 : S128x128.BroadcastsInDim S128x1x128x1 (![0, 2] : Fin 2 → Fin S128x1x128x1.rank)
  bcast_S1x32_S1x1x1x32_1_3 : S1x32.BroadcastsInDim S1x1x1x32 (![1, 3] : Fin 2 → Fin S1x1x1x32.rank)
  bcast_S128x1x128x1_S128x1x128x32_0_1_2_3 : S128x1x128x1.BroadcastsInDim S128x1x128x32 (![0, 1, 2, 3] : Fin 4 → Fin S128x1x128x32.rank)
  bcast_S1x1x1x32_S128x1x128x32_0_1_2_3 : S1x1x1x32.BroadcastsInDim S128x1x128x32 (![0, 1, 2, 3] : Fin 4 → Fin S128x1x128x32.rank)
  shapeCasts_S128x1x128x32_S128x4096 : S128x1x128x32.ShapeCasts S128x4096
  bcast_S1x32_S128x32_0_1 : S1x32.BroadcastsInDim S128x32 (![0, 1] : Fin 2 → Fin S128x32.rank)
  shapeCasts_S128x32_S4096 : S128x32.ShapeCasts S4096
  shapeCasts_S4096_S1x4096 : S4096.ShapeCasts S1x4096
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  transposes_S128x16_p1_0_S16x128 : S128x16.Transposes [1, 0] S16x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  shapeCasts_S4x512x16384_S4x512x512x32 : S4x512x16384.ShapeCasts S4x512x512x32
  dot_S512x256_S256x16_S512x16_1_0_0_1_n_n_wf : DotDims.WF S512x256 S256x16 S512x16 [1] [0] [0] [1] [] []
  dot_S512x16_S16x128_S512x128_1_0_0_1_n_n_wf : DotDims.WF S512x16 S16x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x512x256.size a
  hwx0_0 : ∀ i : grid0.Coords, EltTy.bits .f32 = 32 ∨ (Rect.block (s := S4x512x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x16.size a ≤ S4x512x16.size a
  hwx0_4 : ∀ i : grid0.Coords, EltTy.bits .f32 = 32 ∨ (Rect.block (s := S4x512x16) S1x512x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S4x512x256.size a
  hwx1_0 : ∀ i : grid1.Coords, EltTy.bits .f32 = 32 ∨ (Rect.block (s := S4x512x256) S1x512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x256.size a
  hwx1_3 : ∀ i : grid1.Coords, EltTy.bits .f32 = 32 ∨ (Rect.block (s := S16x256) S16x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x16.size a ≤ S4x512x16.size a
  hwx1_4 : ∀ i : grid1.Coords, EltTy.bits .f32 = 32 ∨ (Rect.block (s := S4x512x16) S1x512x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x16.size a ≤ S4x512x16.size a
  hwx2_0 : ∀ i : grid2.Coords, EltTy.bits .f32 = 32 ∨ (Rect.block (s := S4x512x16) S1x512x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x16.size a ≤ S4x512x16.size a
  hwx2_1 : ∀ i : grid2.Coords, EltTy.bits .f32 = 32 ∨ (Rect.block (s := S4x512x16) S1x128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x4096.size a ≤ S128x4096.size a
  hwx2_2 : ∀ i : grid2.Coords, EltTy.bits .bf16 = 32 ∨ (Rect.block (s := S128x4096) S128x4096.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4096.size a ≤ S1x4096.size a
  hwx2_3 : ∀ i : grid2.Coords, EltTy.bits .f32 = 32 ∨ (Rect.block (s := S1x4096) S1x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x4096.size a ≤ S4x512x16384.size a
  hwx2_4 : ∀ i : grid2.Coords, EltTy.bits .f32 = 32 ∨ (Rect.block (s := S4x512x16384) S1x512x4096.size (cc2_transform_4 i) (hinb2_4 i)).WholeWords (EltTy.packing .f32)

variable [Facts₀]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S1x512x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x128x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S128x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x512x4096.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x512x256 : Shape := ⟨3, ![4, 512, 256]⟩
abbrev S256 : Shape := ⟨1, ![256]⟩
abbrev S16x256 : Shape := ⟨2, ![16, 256]⟩
abbrev S32x1 : Shape := ⟨2, ![32, 1]⟩
abbrev S32 : Shape := ⟨1, ![32]⟩
abbrev S_ : Shape := ⟨0, ![]⟩
abbrev S4x512 : Shape := ⟨2, ![4, 512]⟩
abbrev S4x512x1 : Shape := ⟨3, ![4, 512, 1]⟩
abbrev S1x1x256 : Shape := ⟨3, ![1, 1, 256]⟩
abbrev S4x512x16 : Shape := ⟨3, ![4, 512, 16]⟩
abbrev S4x512x512 : Shape := ⟨3, ![4, 512, 512]⟩
abbrev S4x512x512x1 : Shape := ⟨4, ![4, 512, 512, 1]⟩
abbrev S1x1x1x32 : Shape := ⟨4, ![1, 1, 1, 32]⟩
abbrev S4x512x512x32 : Shape := ⟨4, ![4, 512, 512, 32]⟩

abbrev nBuf : Space → Nat
  | .hbm => 83
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S16x256, .f32⟩
  | .hbm, ⟨7, _⟩ => ⟨S16x256, .f32⟩
  | .hbm, ⟨8, _⟩ => ⟨S32x1, .f32⟩
  | .hbm, ⟨9, _⟩ => ⟨S32, .f32⟩
  | .hbm, ⟨10, _⟩ => ⟨S_, .f32⟩
  | .hbm, ⟨11, _⟩ => ⟨S4x512, .f32⟩
  | .hbm, ⟨12, _⟩ => ⟨S4x512x1, .f32⟩
  | .hbm, ⟨13, _⟩ => ⟨S_, .f32⟩
  | .hbm, ⟨14, _⟩ => ⟨S4x512x1, .f32⟩
  | .hbm, ⟨15, _⟩ => ⟨S4x512x1, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512, .f32⟩
  | .hbm, ⟨21, _⟩ => ⟨S4x512x1, .f32⟩
  | .hbm, ⟨22, _⟩ => ⟨S_, .f32⟩
  | .hbm, ⟨23, _⟩ => ⟨S4x512x1, .f32⟩
  | .hbm, ⟨24, _⟩ => ⟨S4x512x1, .f32⟩
  | .hbm, ⟨25, _⟩ => ⟨S4x512x256, .f32⟩
  | .hbm, ⟨26, _⟩ => ⟨S4x512x256, .f32⟩
  | .hbm, ⟨27, _⟩ => ⟨S_, .f32⟩
  | .hbm, ⟨28, _⟩ => ⟨S4x512x1, .f32⟩
  | .hbm, ⟨29, _⟩ => ⟨S4x512x1, .f32⟩
  | .hbm, ⟨30, _⟩ => ⟨S4x512x1, .f32⟩
  | .hbm, ⟨31, _⟩ => ⟨S4x512x256, .f32⟩
  | .hbm, ⟨32, _⟩ => ⟨S4x512x256, .f32⟩
  | .hbm, ⟨33, _⟩ => ⟨S1x1x256, .f32⟩
  | .hbm, ⟨34, _⟩ => ⟨S4x512x256, .f32⟩
  | .hbm, ⟨35, _⟩ => ⟨S4x512x256, .f32⟩
  | .hbm, ⟨36, _⟩ => ⟨S1x1x256, .f32⟩
  | .hbm, ⟨37, _⟩ => ⟨S4x512x256, .f32⟩
  | .hbm, ⟨38, _⟩ => ⟨S4x512x256, .f32⟩
  | .hbm, ⟨39, _⟩ => ⟨S4x512x16, .f32⟩
  | .hbm, ⟨40, _⟩ => ⟨S_, .f32⟩
  | .hbm, ⟨41, _⟩ => ⟨S4x512, .f32⟩
  | .hbm, ⟨42, _⟩ => ⟨S4x512x1, .f32⟩
  | .hbm, ⟨43, _⟩ => ⟨S_, .f32⟩
  | .hbm, ⟨44, _⟩ => ⟨S4x512x1, .f32⟩
  | .hbm, ⟨45, _⟩ => ⟨S4x512x1, .f32⟩
  | .hbm, ⟨46, _⟩ => ⟨S4x512x256, .f32⟩
  | .hbm, ⟨47, _⟩ => ⟨S4x512x256, .f32⟩
  | .hbm, ⟨48, _⟩ => ⟨S4x512x256, .f32⟩
  | .hbm, ⟨49, _⟩ => ⟨S_, .f32⟩
  | .hbm, ⟨50, _⟩ => ⟨S4x512, .f32⟩
  | .hbm, ⟨51, _⟩ => ⟨S4x512x1, .f32⟩
  | .hbm, ⟨52, _⟩ => ⟨S_, .f32⟩
  | .hbm, ⟨53, _⟩ => ⟨S4x512x1, .f32⟩
  | .hbm, ⟨54, _⟩ => ⟨S4x512x1, .f32⟩
  | .hbm, ⟨55, _⟩ => ⟨S4x512x256, .f32⟩
  | .hbm, ⟨56, _⟩ => ⟨S4x512x256, .f32⟩
  | .hbm, ⟨57, _⟩ => ⟨S_, .f32⟩
  | .hbm, ⟨58, _⟩ => ⟨S4x512x1, .f32⟩
  | .hbm, ⟨59, _⟩ => ⟨S4x512x1, .f32⟩
  | .hbm, ⟨60, _⟩ => ⟨S4x512x1, .f32⟩
  | .hbm, ⟨61, _⟩ => ⟨S4x512x256, .f32⟩
  | .hbm, ⟨62, _⟩ => ⟨S4x512x256, .f32⟩
  | .hbm, ⟨63, _⟩ => ⟨S1x1x256, .f32⟩
  | .hbm, ⟨64, _⟩ => ⟨S4x512x256, .f32⟩
  | .hbm, ⟨65, _⟩ => ⟨S4x512x256, .f32⟩
  | .hbm, ⟨66, _⟩ => ⟨S1x1x256, .f32⟩
  | .hbm, ⟨67, _⟩ => ⟨S4x512x256, .f32⟩
  | .hbm, ⟨68, _⟩ => ⟨S4x512x256, .f32⟩
  | .hbm, ⟨69, _⟩ => ⟨S4x512x16, .f32⟩
  | .hbm, ⟨70, _⟩ => ⟨S4x512x512, .f32⟩
  | .hbm, ⟨71, _⟩ => ⟨S_, .f32⟩
  | .hbm, ⟨72, _⟩ => ⟨S4x512x512, .f32⟩
  | .hbm, ⟨73, _⟩ => ⟨S4x512x512, .f32⟩
  | .hbm, ⟨74, _⟩ => ⟨S4x512x512x1, .f32⟩
  | .hbm, ⟨75, _⟩ => ⟨S32, .f32⟩
  | .hbm, ⟨76, _⟩ => ⟨S1x1x1x32, .f32⟩
  | .hbm, ⟨77, _⟩ => ⟨S4x512x512x32, .f32⟩
  | .hbm, ⟨78, _⟩ => ⟨S4x512x512x32, .f32⟩
  | .hbm, ⟨79, _⟩ => ⟨S4x512x512x32, .f32⟩
  | .hbm, ⟨80, _⟩ => ⟨S1x1x1x32, .f32⟩
  | .hbm, ⟨81, _⟩ => ⟨S4x512x512x32, .f32⟩
  | .hbm, ⟨82, _⟩ => ⟨S4x512x512x32, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  reducesTo_S4x512x256_S4x512_d2 : S4x512x256.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x256_0_1_2 : S4x512x1.BroadcastsInDim S4x512x256 (![0, 1, 2] : Fin 3 → Fin S4x512x256.rank)
  bcast_S256_S1x1x256_2 : S256.BroadcastsInDim S1x1x256 (![2] : Fin 1 → Fin S1x1x256.rank)
  bcast_S1x1x256_S4x512x256_0_1_2 : S1x1x256.BroadcastsInDim S4x512x256 (![0, 1, 2] : Fin 3 → Fin S4x512x256.rank)
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  shapeCasts_S32x1_S32 : S32x1.ShapeCasts S32
  bcast_S32_S1x1x1x32_3 : S32.BroadcastsInDim S1x1x1x32 (![3] : Fin 1 → Fin S1x1x1x32.rank)
  bcast_S4x512x512x1_S4x512x512x32_0_1_2_3 : S4x512x512x1.BroadcastsInDim S4x512x512x32 (![0, 1, 2, 3] : Fin 4 → Fin S4x512x512x32.rank)
  bcast_S1x1x1x32_S4x512x512x32_0_1_2_3 : S1x1x1x32.BroadcastsInDim S4x512x512x32 (![0, 1, 2, 3] : Fin 4 → Fin S4x512x512x32.rank)
  dot_S4x512x256_S16x256_S4x512x16_2_1_01_0_n_n_wf : DotDims.WF S4x512x256 S16x256 S4x512x16 [2] [1] [0, 1] [0] [] []
  dot_S4x512x16_S4x512x16_S4x512x512_2_2_1_1_0_0_wf : DotDims.WF S4x512x16 S4x512x16 S4x512x512 [2] [2] [1] [1] [0] [0]

variable [Facts₀]

def dot_S4x512x256_S16x256_S4x512x16_2_1_01_0_n_n : DotDims S4x512x256 S16x256 S4x512x16 where
  lhsContracting := [2]
  rhsContracting := [1]
  lhsNonContracting := [0, 1]
  rhsNonContracting := [0]
  lhsBatch := []
  rhsBatch := []
  wf := dot_S4x512x256_S16x256_S4x512x16_2_1_01_0_n_n_wf
def dot_S4x512x16_S4x512x16_S4x512x512_2_2_1_1_0_0 : DotDims S4x512x16 S4x512x16 S4x512x512 where
  lhsContracting := [2]
  rhsContracting := [2]
  lhsNonContracting := [1]
  rhsNonContracting := [1]
  lhsBatch := [0]
  rhsBatch := [0]
  wf := dot_S4x512x16_S4x512x16_S4x512x512_2_2_1_1_0_0_wf

class Facts : Prop extends Facts₀ where

variable [Facts]
-- ==== Proof.RunMain.lean ====
/-
  The whole program's run, with its result named.

  The program is three launches among stretches of host operations. Every weakly fair execution terminates without a
  fault; the argument arrays end as launched; and the result buffer ends holding what the last boundary of the walk
  through the program holds there: the last host operation applied to the third launch's output array, which is the
  fold of that launch's write-backs over the buffers as the launch found them, and so on back to the launch memory.
-/
import proofs.«147179_j8899172237442_2_alg».proof.Proof.Gen.KernelIdeal.Frame

set_option maxRecDepth 16384

noncomputable section

namespace Cert.KernelIdeal.RunMain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v17) = W7 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v17 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.RunMain

end
-- ==== Proof.Spec.lean ====
/-
  What both programs compute, on the extended reals.

  Two batches of four stacks of 512 rows, each row 256 numbers, are normalised row by row: a row's mean is subtracted,
  the result is scaled by the reciprocal square root of the row's variance plus a small constant, multiplied column by
  column by a weight vector and shifted by a bias vector. Each normalised row is projected to 16 channels (its inner
  products with the 16 rows of a projection matrix). For a row l of the first batch and a row p of the second, in the
  same stack b, the score z(b, l, p) is the sum over the 16 channels of the products of the two projections, divided
  by 16; and the result at (b, l, p, o), for o below 32, is z(b, l, p) * u(o) + v(o).

  The constants are kept as the f32 words both programs print: the same word on both sides is never evaluated. The
  only words that are, are 16 and its reciprocal 1/16, because one program divides by the first and the other
  multiplies by the second.
-/
import Idealize.ShloMosaic.PureOps.Ideal
import Idealize.ShloMosaic.PureOps.Ideal.Laws
import Idealize.ShloMosaic.Lib.ValueIdx

noncomputable section

namespace Cert.PairLinear

open Idealize.ShloMosaic Idealize.ShloMosaic.ValueIdx

/-- The row length 256, as both programs write it. -/
abbrev c256 : EReal := Ideal.ofBits .f32 0x43800000#32
/-- The small constant added to a variance. -/
abbrev cEps : EReal := Ideal.ofBits .f32 0x3727C5AC#32
/-- The number of channels, 16. -/
abbrev c16 : EReal := Ideal.ofBits .f32 0x41800000#32
/-- Its reciprocal, 1/16. -/
abbrev cInv16 : EReal := Ideal.ofBits .f32 0x3D800000#32

/-- A row's mean. -/
def mean (x : Fin 256 → EReal) : EReal := Ideal.div (∑ k, x k) c256

/-- A row's variance: the mean of the squared deviations from the mean. -/
def variance (x : Fin 256 → EReal) : EReal := Ideal.div (∑ k, (x k - mean x) * (x k - mean x)) c256

/-- A normalised row: deviation from the mean, times the reciprocal square root of variance plus the small
    constant, times the weight, plus the bias. -/
def normRow (x w b : Fin 256 → EReal) (d : Fin 256) : EReal :=
  (x d - mean x) * Ideal.rsqrt (variance x + cEps) * w d + b d

/-- A normalised row's projection on channel c. -/
def proj (x w b : Fin 256 → EReal) (W : Fin 16 → Fin 256 → EReal) (c : Fin 16) : EReal :=
  ∑ d, normRow x w b d * W c d

/-- Row l of stack b of a batch. -/
def rowOf (X : (⟨3, ![4, 512, 256]⟩ : Shape).Idx → EReal) (b : Fin 4) (l : Fin 512) : Fin 256 → EReal :=
  fun k => X (ix3 b l k)

/-- A length-256 array as a function of its one coordinate. -/
def vecOf (w : (⟨1, ![256]⟩ : Shape).Idx → EReal) : Fin 256 → EReal := fun k => w (ix1 k)

/-- A 16 by 256 array as a function of its two coordinates. -/
def matOf (W : (⟨2, ![16, 256]⟩ : Shape).Idx → EReal) : Fin 16 → Fin 256 → EReal := fun c d => W (ix2 c d)

/-- The projection of row l of stack b on channel c. -/
def projAt (X : (⟨3, ![4, 512, 256]⟩ : Shape).Idx → EReal) (w b : (⟨1, ![256]⟩ : Shape).Idx → EReal)
    (W : (⟨2, ![16, 256]⟩ : Shape).Idx → EReal) (s : Fin 4) (l : Fin 512) (c : Fin 16) : EReal :=
  proj (rowOf X s l) (vecOf w) (vecOf b) (matOf W) c

/-- The array of all projections, 4 by 512 by 16. -/
def projArr (X : (⟨3, ![4, 512, 256]⟩ : Shape).Idx → EReal) (w b : (⟨1, ![256]⟩ : Shape).Idx → EReal)
    (W : (⟨2, ![16, 256]⟩ : Shape).Idx → EReal) : (⟨3, ![4, 512, 16]⟩ : Shape).Idx → EReal :=
  fun i => projAt X w b W ⟨(i 0).val, (i 0).isLt⟩ ⟨(i 1).val, (i 1).isLt⟩ ⟨(i 2).val, (i 2).isLt⟩

theorem projArr_apply (X : (⟨3, ![4, 512, 256]⟩ : Shape).Idx → EReal) (w b : (⟨1, ![256]⟩ : Shape).Idx → EReal)
    (W : (⟨2, ![16, 256]⟩ : Shape).Idx → EReal) (s : Fin 4) (l : Fin 512) (c : Fin 16) :
    projArr X w b W (ix3 s l c) = projAt X w b W s l c := rfl

/-- The inner product over the 16 channels of row l of the first projected batch and row p of the second. -/
def dot16 (hl hp : (⟨3, ![4, 512, 16]⟩ : Shape).Idx → EReal) (s : Fin 4) (l p : Fin 512) : EReal :=
  ∑ c : Fin 16, hl (ix3 s l c) * hp (ix3 s p c)

/-- The result: the channel mean of the products, through the linear map of one input and 32 outputs. -/
def result (hl hp : (⟨3, ![4, 512, 16]⟩ : Shape).Idx → EReal) (U : (⟨2, ![32, 1]⟩ : Shape).Idx → EReal)
    (v : (⟨1, ![32]⟩ : Shape).Idx → EReal) : (⟨4, ![4, 512, 512, 32]⟩ : Shape).Idx → EReal :=
  fun i => Ideal.div (dot16 hl hp ⟨(i 0).val, (i 0).isLt⟩ ⟨(i 1).val, (i 1).isLt⟩ ⟨(i 2).val, (i 2).isLt⟩) c16
    * U (ix2 (⟨(i 3).val, (i 3).isLt⟩ : Fin 32) (0 : Fin 1)) + v (ix1 (⟨(i 3).val, (i 3).isLt⟩ : Fin 32))

theorem result_apply (hl hp : (⟨3, ![4, 512, 16]⟩ : Shape).Idx → EReal) (U : (⟨2, ![32, 1]⟩ : Shape).Idx → EReal)
    (v : (⟨1, ![32]⟩ : Shape).Idx → EReal) (s : Fin 4) (l p : Fin 512) (o : Fin 32) :
    result hl hp U v (ix4 s l p o) = Ideal.div (dot16 hl hp s l p) c16 * U (ix2 o (0 : Fin 1)) + v (ix1 o) := rfl

/-- The whole function of the ten argument arrays. -/
def G (X0 X1 : (⟨3, ![4, 512, 256]⟩ : Shape).Idx → EReal) (w0 b0 w1 b1 : (⟨1, ![256]⟩ : Shape).Idx → EReal)
    (W0 W1 : (⟨2, ![16, 256]⟩ : Shape).Idx → EReal) (U : (⟨2, ![32, 1]⟩ : Shape).Idx → EReal)
    (v : (⟨1, ![32]⟩ : Shape).Idx → EReal) : (⟨4, ![4, 512, 512, 32]⟩ : Shape).Idx → EReal :=
  result (projArr X0 w0 b0 W0) (projArr X1 w1 b1 W1) U v

/-! ## The two words that are evaluated -/

/-- The f32 word 0x41800000 is 16. -/
theorem c16_eq : c16 = ((16 : ℝ) : EReal) := by
  simp [c16, Ideal.ofBits, Ideal.ieee, -EReal.coe_mul]; norm_num

/-- The f32 word 0x3D800000 is 1/16. -/
theorem cInv16_eq : cInv16 = ((1 / 16 : ℝ) : EReal) := by
  simp [cInv16, Ideal.ofBits, Ideal.ieee, -EReal.coe_mul]; norm_num

/-- Dividing by 16 is multiplying by 1/16, on every extended real. -/
theorem div16 (x : EReal) : Ideal.div x c16 = x * cInv16 := by
  rw [c16_eq, cInv16_eq]
  exact Ideal.div_coe (by norm_num) x

/-- The f32 word of zero is zero. -/
theorem zero_word : Ideal.ofBits .f32 0x00000000#32 = 0 := Ideal.ofBits_zero_f32

/-- Of a sum of terms each multiplied by one or by zero according to whether its index is a given one, only that
    index's term is left. -/
theorem sum_select {n : ℕ} (z : Fin n → EReal) (e : Fin n → EReal) (u : EReal) (j0 : Fin n)
    (he : ∀ j, e j = if j = j0 then u else 0) : ∑ j, z j * e j = z j0 * u := by
  rw [Finset.sum_eq_single j0]
  · rw [he j0, if_pos rfl]
  · intro j _ hj
    rw [he j, if_neg hj, mul_zero]
  · intro h; exact absurd (Finset.mem_univ j0) h

end Cert.PairLinear

end
-- ==== Proof.LibRowReduce.lean ====
/-
  A reduction of a matrix along its second axis, read at a row.

  On the extended reals a `vector.multi_reduction` of an `[a, b]` array over axis 1 into `[a]` is, at row `p`,
  the sum (for `add`), the maximum folded from the accumulator's value (for `maximumf`) or the minimum folded from
  the accumulator's value (for `minimumf`) of the row's entries `(p, k)`, `k : Fin b`. The library reads such a
  reduction over the coordinates of the dropped axis with the reduced index re-inserted; here the re-inserted index is
  written by its coordinates. Also: the f32 words of minus infinity and of 8192.
-/
import Idealize.ShloMosaic.PureOps.Ideal.Laws
import Idealize.ShloMosaic.Lib.ValueIdx

namespace Idealize.ShloMosaic.RowReduce

open Idealize.ShloMosaic Idealize.ShloMosaic.ValueIdx

/-- Row `p` with column `k` inserted on the dropped axis is the index `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- A sum along the rows: at row `p`, the sum over `k` of the entries `(p, k)`. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A maximum along the rows: at row `p`, the maximum folded from the accumulator's value over the entries `(p, k)`. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (fun f : Fin b → EReal => (Finset.univ : Finset (Fin b)).fold max (Ideal.ofBits φ acc) f)
    (funext fun k => congrArg src (lift_row h p k))

/-- A minimum along the rows: at row `p`, the minimum folded from the accumulator's value over the entries `(p, k)`. -/
theorem multiReduction_minimumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun k => src (ix2 p k)) := by
  classical
  rw [multiReduction_minimumf_eq_fold]
  refine (h.fold_filter_drop_single _ _ src (ix1 p)).trans ?_
  exact congrArg (fun f : Fin b → EReal => (Finset.univ : Finset (Fin b)).fold min (Ideal.ofBits φ acc) f)
    (funext fun k => congrArg src (lift_row h p k))

/-- The f32 word of minus infinity is the bottom element. -/
theorem ofBits_neg_inf : Ideal.ofBits .f32 0xFF800000#32 = ⊥ := by
  simp [Ideal.ofBits, Ideal.ieee]

/-- The f32 word `0x46000000` is the real number 8192. -/
theorem ofBits_8192 : Ideal.ofBits .f32 0x46000000#32 = ((8192 : ℝ) : EReal) := by
  simp [Ideal.ofBits, Ideal.ieee, -EReal.coe_mul]; norm_num

end Idealize.ShloMosaic.RowReduce
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.LibVectorAsColumn.lean ====
/-
  A vector viewed as a one-column matrix, read at an index given by coordinates: an `[a]` array cast to `[a, 1]` (what
  `v.reshape(a, 1)` or `v[:, None]` is, as a shape cast) reads, at `(i, u)`, the vector's entry `i`. The layout library
  has the row form `[a] → [1, a]`; this is the column form, with the row-major arithmetic discharged the same way.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.BodyNorm.lean ====
/-
  The normalise-and-project body, read at an entry.

  The body holds one stack of 512 rows of 256 numbers, a weight vector, a bias vector and a 16 by 256 projection
  matrix. It sums each row, divides by 256, subtracts that mean from the row, sums the squared deviations, divides by
  256, adds the small constant, takes the reciprocal square root, multiplies the deviations by it, then by the weight,
  adds the bias, and multiplies the 512 by 256 result with the transposed projection matrix. Read at row l and
  channel c the stored value is therefore the projection on channel c of the normalised row l.
-/
import proofs.«147179_j8899172237442_2_alg».proof.Proof.Gen.KernelIdeal.Skeleton
import proofs.«147179_j8899172237442_2_alg».proof.Proof.Spec
import proofs.«147179_j8899172237442_2_alg».proof.Proof.LibRowReduce
import proofs.«147179_j8899172237442_2_alg».proof.Proof.LibColumnLayout
import proofs.«147179_j8899172237442_2_alg».proof.Proof.LibVectorAsColumn
import proofs.«147179_j8899172237442_2_alg».proof.Proof.LibMatmulRowsByCols
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.PairLinear

/-- The sum of each row, viewed as a column, read at row l. -/
theorem rowsum_apply (x : FVec Ideal S512x256 .f32) (l : Fin 512) :
    shapeCast S512x1 (multiReduction .add [1] S512 x 0x00000000#32 reduces_S512x256_S512 (.inl rfl) rfl) shapeCasts_S512_S512x1
      (ix2 l (0 : Fin 1)) = ∑ k : Fin 256, x (ix2 l k) :=
  (shapeCast_a_a1_apply _ shapeCasts_S512_S512x1 l (0 : Fin 1)).trans
    (RowReduce.multiReduction_add_row x 0x00000000#32 reduces_S512x256_S512 (.inl rfl) rfl l)

/-- A column spread over the 256 columns reads the column's entry. -/
theorem col_spread_apply (y : FVec Ideal S512x1 .f32) (l : Fin 512) (k : Fin 256) :
    broadcastTo S512x256 y broadcasts_S512x1_S512x256 (ix2 l k) = y (ix2 l (0 : Fin 1)) :=
  broadcastTo_a1_ab_apply y broadcasts_S512x1_S512x256 l k

/-- A vector spread down the 512 rows reads the vector's entry. -/
theorem row_spread_apply (w : FVec Ideal S256 .f32) (l : Fin 512) (k : Fin 256) :
    broadcastTo S512x256 (shapeCast S1x256 w shapeCasts_S256_S1x256) broadcasts_S1x256_S512x256 (ix2 l k) = w (ix1 k) :=
  (broadcastTo_1b_ab_apply _ broadcasts_S1x256_S512x256 l k).trans (shapeCast_a_1a_apply w shapeCasts_S256_S1x256 (0 : Fin 1) k)

/-- The row mean as the body computes it. -/
theorem mean_apply (x : FVec Ideal S512x256 .f32) (l : Fin 512) :
    divf (shapeCast S512x1 (multiReduction .add [1] S512 x 0x00000000#32 reduces_S512x256_S512 (.inl rfl) rfl) shapeCasts_S512_S512x1)
      (broadcast S512x1 (FloatOps.ofBits (F := Ideal) .f32 0x43800000#32)) (ix2 l (0 : Fin 1)) = mean (fun k => x (ix2 l k)) := by
  show Ideal.div _ _ = _
  rw [rowsum_apply]
  rfl

/-- The row variance as the body computes it. -/
theorem variance_apply (x : FVec Ideal S512x256 .f32) (l : Fin 512) :
    divf (shapeCast S512x1 (multiReduction .add [1] S512
        (mulf
          (subf x (broadcastTo S512x256
            (divf (shapeCast S512x1 (multiReduction .add [1] S512 x 0x00000000#32 reduces_S512x256_S512 (.inl rfl) rfl) shapeCasts_S512_S512x1)
              (broadcast S512x1 (FloatOps.ofBits (F := Ideal) .f32 0x43800000#32))) broadcasts_S512x1_S512x256))
          (subf x (broadcastTo S512x256
            (divf (shapeCast S512x1 (multiReduction .add [1] S512 x 0x00000000#32 reduces_S512x256_S512 (.inl rfl) rfl) shapeCasts_S512_S512x1)
              (broadcast S512x1 (FloatOps.ofBits (F := Ideal) .f32 0x43800000#32))) broadcasts_S512x1_S512x256)))
        0x00000000#32 reduces_S512x256_S512 (.inl rfl) rfl) shapeCasts_S512_S512x1)
      (broadcast S512x1 (FloatOps.ofBits (F := Ideal) .f32 0x43800000#32)) (ix2 l (0 : Fin 1))
      = variance (fun k => x (ix2 l k)) := by
  show Ideal.div _ _ = _
  rw [rowsum_apply]
  simp only [mulf_apply, subf_apply, col_spread_apply]
  rw [mean_apply]
  rfl

/-- The first product's dimension record contracts the left operand's columns with the right operand's rows. -/
theorem dotNorm_apply (a : FVec Ideal S512x256 .bf16) (b : FVec Ideal S256x16 .bf16) (l : Fin 512) (c : Fin 16) :
    matmul dot_S512x256_S256x16_S512x16_1_0_0_1_n_n none a b (constant S512x16 .f32 0x00000000#32) (ix2 l c)
      = ∑ d : Fin 256, a (ix2 l d) * b (ix2 d c) :=
  MatmulRowsByCols.matmul_zero_apply dot_S512x256_S256x16_S512x16_1_0_0_1_n_n rfl rfl
    (fun j q => by
      unfold DotDims.lhsIdx
      rw [dif_neg (show ¬(0 : Fin S512x256.rank) ∈ dot_S512x256_S256x16_S512x16_1_0_0_1_n_n.lhsBatch by decide),
        dif_pos (show (0 : Fin S512x256.rank) ∈ dot_S512x256_S256x16_S512x16_1_0_0_1_n_n.lhsNonContracting by decide)]
      rfl)
    (fun j q => dot_S512x256_S256x16_S512x16_1_0_0_1_n_n.lhsIdx_val_of_single rfl j q)
    (fun j q => dot_S512x256_S256x16_S512x16_1_0_0_1_n_n.rhsIdx_val_of_single rfl j q)
    (fun j q => by
      unfold DotDims.rhsIdx
      rw [dif_neg (show ¬(1 : Fin S256x16.rank) ∈ dot_S512x256_S256x16_S512x16_1_0_0_1_n_n.rhsBatch by decide),
        dif_pos (show (1 : Fin S256x16.rank) ∈ dot_S512x256_S256x16_S512x16_1_0_0_1_n_n.rhsNonContracting by decide)]
      rfl)
    none a b l c

/-- The stored value at row l, channel c: the projection of the normalised row. -/
theorem normProj_apply (v0 : Vec Ideal S1x512x256 .f32) (v20 v24 : Vec Ideal S256 .f32) (v29 : Vec Ideal S16x256 .f32)
    (l : Fin 512) (c : Fin 16) :
    k0_pay1 (F := Ideal) v0 v20 v24 v29 (ix3 (0 : Fin 1) l c)
      = proj (fun k => v0 (ix3 (0 : Fin 1) l k)) (vecOf v20) (vecOf v24) (matOf v29) c := by
  unfold k0_pay1
  dsimp only
  refine (shapeCast_ab_1ab_apply _ shapeCasts_S512x16_S1x512x16 (0 : Fin 1) l c).trans ?_
  refine (dotNorm_apply _ _ l c).trans ?_
  unfold proj
  refine Finset.sum_congr rfl fun d _ => ?_
  refine congrArg₂ (· * ·) ?_ (transpose_ix2_apply _ transposes_S16x256_p1_0_S256x16 d c)
  have hx : (fun k => v0 (ix3 (0 : Fin 1) l k))
      = fun k => (shapeCast S512x256 v0 shapeCasts_S1x512x256_S512x256) (ix2 l k) :=
    funext fun k => (shapeCast_1ab_ab_apply v0 shapeCasts_S1x512x256_S512x256 l k).symm
  rw [hx]
  generalize shapeCast S512x256 v0 shapeCasts_S1x512x256_S512x256 = x
  simp only [truncf_apply, addf_apply, mulf_apply, subf_apply, row_spread_apply, col_spread_apply]
  show _ * Ideal.rsqrt (_ + _) * _ + _ = _
  rw [variance_apply, mean_apply]
  rfl

/-- The second launch runs the same body on the other batch. -/
theorem normProj_apply' (v0 : Vec Ideal S1x512x256 .f32) (v20 v24 : Vec Ideal S256 .f32) (v29 : Vec Ideal S16x256 .f32)
    (l : Fin 512) (c : Fin 16) :
    k1_pay1 (F := Ideal) v0 v20 v24 v29 (ix3 (0 : Fin 1) l c)
      = proj (fun k => v0 (ix3 (0 : Fin 1) l k)) (vecOf v20) (vecOf v24) (matOf v29) c :=
  normProj_apply v0 v20 v24 v29 l c

end Cert.KernelIdeal.Body

end
-- ==== Proof.ArrNorm0.lean ====
/-
  The first launch's output array: every normalised row's projections.

  The launch walks the four stacks. At stack t it stages rows (t, ., .) of the batch, the whole weight, bias and
  projection arrays, runs the body, and writes the 512 by 16 result back as rows (t, ., .) of the output. The body's
  result at (l, c) is the projection on channel c of the normalised row l of the staged stack, so the output array
  ends holding, at (t, l, c), the projection of row l of stack t; the four write-backs cover the array.
-/
import proofs.«147179_j8899172237442_2_alg».proof.Proof.Gen.KernelIdeal.Frame
import proofs.«147179_j8899172237442_2_alg».proof.Proof.BodyNorm
import Idealize.ShloMosaic.Lib.Pipeline.Value

noncomputable section

open Idealize.ShloMosaic Idealize.ShloMosaic.TcCoe Idealize.SL.Sem
open Idealize.ShloMosaic.Pipeline (Dat)

namespace Cert.KernelIdeal.ArrNorm0

open Cert.KernelIdeal Cert.KernelIdeal.Gen Cert.KernelIdeal.Body Idealize.ShloMosaic.ValueIdx Cert.PairLinear

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at stack t: the batch and the output move with t, the rest stay. -/
theorem index_facts (t : Fin cfg0.N) :
    (win0_0.index t 0 = t.val ∧ win0_0.index t 1 = 0 ∧ win0_0.index t 2 = 0)
    ∧ win0_1.index t 0 = 0 ∧ win0_2.index t 0 = 0
    ∧ (win0_3.index t 0 = 0 ∧ win0_3.index t 1 = 0)
    ∧ (win0_4.index t 0 = t.val ∧ win0_4.index t 1 = 0 ∧ win0_4.index t 2 = 0) := by
  rcases fin_N0 t with rfl | rfl | rfl | rfl <;> decide

/-- The staged batch block at stack t is rows (t, ., .) of the batch. -/
theorem batch_block (c : Dev nD) (t : Fin cfg0.N) (x : S1x512x256.Idx) (k : S4x512x256.Idx)
    (hk0 : (k 0).val = t.val) (hk1 : (k 1).val = (x 1).val) (hk2 : (k 2).val = (x 2).val) :
    (iblk0 V c 0 t : Vec Ideal S1x512x256 .f32) x = (V c main_arg0 : S4x512x256.Idx → EReal) k := by
  obtain ⟨⟨i0, i1, i2⟩, -⟩ := index_facts t
  unfold iblk0
  rw [View.read_apply]
  show V c main_arg0 _ = V c main_arg0 _
  refine congrArg (V c main_arg0) ?_
  funext a
  apply Fin.ext
  have h0 : (x 0).val < 1 := (x 0).isLt
  match a with
  | ⟨0, _⟩ => show win0_0.index t 0 * 1 + 1 * (x 0).val = (k 0).val; rw [i0, hk0]; omega
  | ⟨1, _⟩ => show win0_0.index t 1 * 512 + 1 * (x 1).val = (k 1).val; rw [i1, hk1]; omega
  | ⟨2, _⟩ => show win0_0.index t 2 * 256 + 1 * (x 2).val = (k 2).val; rw [i2, hk2]; omega

/-- The staged weight block is the weight array. -/
theorem weight_block (c : Dev nD) (t : Fin cfg0.N) (k : Fin 256) :
    (iblk0 V c 1 t : Vec Ideal S256 .f32) (ix1 k) = (V c main_arg2 : S256.Idx → EReal) (ix1 k) := by
  obtain ⟨-, i0, -⟩ := index_facts t
  unfold iblk0
  rw [View.read_apply]
  show V c main_arg2 _ = V c main_arg2 _
  refine congrArg (V c main_arg2) ?_
  funext a
  apply Fin.ext
  match a with
  | ⟨0, _⟩ => show win0_1.index t 0 * 256 + 1 * k.val = k.val; rw [i0]; omega

/-- The staged bias block is the bias array. -/
theorem bias_block (c : Dev nD) (t : Fin cfg0.N) (k : Fin 256) :
    (iblk0 V c 2 t : Vec Ideal S256 .f32) (ix1 k) = (V c main_arg3 : S256.Idx → EReal) (ix1 k) := by
  obtain ⟨-, -, i0, -⟩ := index_facts t
  unfold iblk0
  rw [View.read_apply]
  show V c main_arg3 _ = V c main_arg3 _
  refine congrArg (V c main_arg3) ?_
  funext a
  apply Fin.ext
  match a with
  | ⟨0, _⟩ => show win0_2.index t 0 * 256 + 1 * k.val = k.val; rw [i0]; omega

/-- The staged projection block is the projection matrix. -/
theorem matrix_block (c : Dev nD) (t : Fin cfg0.N) (cc : Fin 16) (k : Fin 256) :
    (iblk0 V c 3 t : Vec Ideal S16x256 .f32) (ix2 cc k) = (V c main_arg6 : S16x256.Idx → EReal) (ix2 cc k) := by
  obtain ⟨-, -, -, ⟨i0, i1⟩, -⟩ := index_facts t
  unfold iblk0
  rw [View.read_apply]
  show V c main_arg6 _ = V c main_arg6 _
  refine congrArg (V c main_arg6) ?_
  funext a
  apply Fin.ext
  match a with
  | ⟨0, _⟩ => show win0_3.index t 0 * 16 + 1 * cc.val = cc.val; rw [i0]; omega
  | ⟨1, _⟩ => show win0_3.index t 1 * 256 + 1 * k.val = k.val; rw [i1]; omega

/-- The stack a point works on. -/
def stackOf (t : Fin cfg0.N) : Fin 4 := ⟨t.val, by have h : cfg0.N = 4 := N_0; have := t.isLt; omega⟩

/-- What stack t writes back is block t of the projections of the arrays the launch finds. -/
theorem flushed_eq (c : Dev nD) (t : Fin cfg0.N) :
    (dat0 V c).flushed 4 t = ((cfg0.win 4).blk t).view.read (Elt Ideal)
      (projArr (V c main_arg0) (V c main_arg2) (V c main_arg3) (V c main_arg6)) := by
  show (cfg0.win 4).cut (grid0.coords t) ((dat0 V c).after 4 t) = _
  rw [after0_4]
  unfold out0_4
  rw [View.canon_unit_zero hz3]
  simp only [View.ld_unit_zero (S := S1x512x256) hz3, View.ld_unit_zero (S := S256) hz1, View.ld_unit_zero (S := S16x256) hz2]
  refine funext fun (j : S1x512x16.Idx) => ?_
  obtain ⟨u, l, cc, rfl⟩ : ∃ (u : Fin 1) (l : Fin 512) (cc : Fin 16), j = ix3 u l cc := ⟨j 0, j 1, j 2, eq_ix3 j⟩
  obtain rfl : u = 0 := Subsingleton.elim _ _
  show k0_pay1 (iblk0 V c 0 t) (iblk0 V c 1 t) (iblk0 V c 2 t) (iblk0 V c 3 t) (ix3 (0 : Fin 1) l cc)
    = projArr (V c main_arg0) (V c main_arg2) (V c main_arg3) (V c main_arg6)
        (((cfg0.win 4).blk t).view.emb (ix3 (0 : Fin 1) l cc))
  obtain ⟨-, -, -, -, o0, o1, o2⟩ := index_facts t
  have hemb : ((cfg0.win 4).blk t).view.emb (ix3 (0 : Fin 1) l cc) = ix3 (stackOf t) l cc := by
    funext a
    apply Fin.ext
    match a with
    | ⟨0, _⟩ => show win0_4.index t 0 * 1 + 1 * 0 = t.val; rw [o0]; omega
    | ⟨1, _⟩ => show win0_4.index t 1 * 512 + 1 * l.val = l.val; rw [o1]; omega
    | ⟨2, _⟩ => show win0_4.index t 2 * 16 + 1 * cc.val = cc.val; rw [o2]; omega
  rw [hemb, projArr_apply, normProj_apply]
  unfold projAt
  have e0 : (fun k => (iblk0 V c 0 t : Vec Ideal S1x512x256 .f32) (ix3 (0 : Fin 1) l k))
      = rowOf (V c main_arg0) (stackOf t) l :=
    funext fun k => batch_block V c t (ix3 (0 : Fin 1) l k) (ix3 (stackOf t) l k) rfl rfl rfl
  have e1 : vecOf (iblk0 V c 1 t) = vecOf (V c main_arg2) := funext fun k => weight_block V c t k
  have e2 : vecOf (iblk0 V c 2 t) = vecOf (V c main_arg3) := funext fun k => bias_block V c t k
  have e3 : matOf (iblk0 V c 3 t) = matOf (V c main_arg6) := funext fun a => funext fun k => matrix_block V c t a k
  rw [e0, e1, e2, e3]

/-- An index of the output array is in stack t's block iff each coordinate is in the block's range. -/
theorem mem_block (t : Fin cfg0.N) (i : S4x512x16.Idx) :
    i ∈ ((cfg0.win 4).blk t).view.set ↔ ∀ a : Fin 3, win0_4.index t a * S1x512x16.size a ≤ (i a).val
      ∧ (i a).val < win0_4.index t a * S1x512x16.size a + S1x512x16.size a := by
  show i ∈ ((View.whole main_v0).slice (win0_4.rect t)).set ↔ _
  rw [View.set_slice_whole, Rect.mem_set_unit]
  exact Iff.rfl

/-- Every index of the output array is in the block of the stack its first coordinate names. -/
theorem covered (i : S4x512x16.Idx) :
    ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 16 := (i 2).isLt
  have hN : cfg0.N = 4 := N_0
  refine ⟨⟨(i 0).val, by omega⟩, flush0_4 _, ?_⟩
  rw [mem_block]
  obtain ⟨-, -, -, -, o0, o1, o2⟩ := index_facts ⟨(i 0).val, by omega⟩
  intro a
  match a with
  | ⟨0, _⟩ =>
    show win0_4.index ⟨(i 0).val, _⟩ 0 * 1 ≤ (i 0).val ∧ (i 0).val < win0_4.index ⟨(i 0).val, _⟩ 0 * 1 + 1
    rw [o0]; show (i 0).val * 1 ≤ (i 0).val ∧ (i 0).val < (i 0).val * 1 + 1; omega
  | ⟨1, _⟩ =>
    show win0_4.index ⟨(i 0).val, _⟩ 1 * 512 ≤ (i 1).val ∧ (i 1).val < win0_4.index ⟨(i 0).val, _⟩ 1 * 512 + 512
    rw [o1]; omega
  | ⟨2, _⟩ =>
    show win0_4.index ⟨(i 0).val, _⟩ 2 * 16 ≤ (i 2).val ∧ (i 2).val < win0_4.index ⟨(i 0).val, _⟩ 2 * 16 + 16
    rw [o2]; omega

/-- The output array after the launch: the projections of the arrays the launch found. -/
theorem final (c : Dev nD) :
    (dat0 V c).arrAt 4 cfg0.N = projArr (V c main_arg0) (V c main_arg2) (V c main_arg3) (V c main_arg6) :=
  (dat0 V c).arrAt_eq_of_cover 4 _ (fun t _ => flushed_eq V c t) covered

end Cert.KernelIdeal.ArrNorm0

end
-- ==== Proof.ArrNorm1.lean ====
/-
  The second launch's output array: every normalised row's projections.

  The launch walks the four stacks. At stack t it stages rows (t, ., .) of the batch, the whole weight, bias and
  projection arrays, runs the body, and writes the 512 by 16 result back as rows (t, ., .) of the output. The body's
  result at (l, c) is the projection on channel c of the normalised row l of the staged stack, so the output array
  ends holding, at (t, l, c), the projection of row l of stack t; the four write-backs cover the array.
-/
import proofs.«147179_j8899172237442_2_alg».proof.Proof.Gen.KernelIdeal.Frame
import proofs.«147179_j8899172237442_2_alg».proof.Proof.BodyNorm
import Idealize.ShloMosaic.Lib.Pipeline.Value

noncomputable section

open Idealize.ShloMosaic Idealize.ShloMosaic.TcCoe Idealize.SL.Sem
open Idealize.ShloMosaic.Pipeline (Dat)

namespace Cert.KernelIdeal.ArrNorm1

open Cert.KernelIdeal Cert.KernelIdeal.Gen Cert.KernelIdeal.Body Idealize.ShloMosaic.ValueIdx Cert.PairLinear

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at stack t: the batch and the output move with t, the rest stay. -/
theorem index_facts (t : Fin cfg1.N) :
    (win1_0.index t 0 = t.val ∧ win1_0.index t 1 = 0 ∧ win1_0.index t 2 = 0)
    ∧ win1_1.index t 0 = 0 ∧ win1_2.index t 0 = 0
    ∧ (win1_3.index t 0 = 0 ∧ win1_3.index t 1 = 0)
    ∧ (win1_4.index t 0 = t.val ∧ win1_4.index t 1 = 0 ∧ win1_4.index t 2 = 0) := by
  rcases fin_N1 t with rfl | rfl | rfl | rfl <;> decide

/-- The staged batch block at stack t is rows (t, ., .) of the batch. -/
theorem batch_block (c : Dev nD) (t : Fin cfg1.N) (x : S1x512x256.Idx) (k : S4x512x256.Idx)
    (hk0 : (k 0).val = t.val) (hk1 : (k 1).val = (x 1).val) (hk2 : (k 2).val = (x 2).val) :
    (iblk1 V c 0 t : Vec Ideal S1x512x256 .f32) x = (V c main_arg1 : S4x512x256.Idx → EReal) k := by
  obtain ⟨⟨i0, i1, i2⟩, -⟩ := index_facts t
  unfold iblk1
  rw [View.read_apply]
  show V c main_arg1 _ = V c main_arg1 _
  refine congrArg (V c main_arg1) ?_
  funext a
  apply Fin.ext
  have h0 : (x 0).val < 1 := (x 0).isLt
  match a with
  | ⟨0, _⟩ => show win1_0.index t 0 * 1 + 1 * (x 0).val = (k 0).val; rw [i0, hk0]; omega
  | ⟨1, _⟩ => show win1_0.index t 1 * 512 + 1 * (x 1).val = (k 1).val; rw [i1, hk1]; omega
  | ⟨2, _⟩ => show win1_0.index t 2 * 256 + 1 * (x 2).val = (k 2).val; rw [i2, hk2]; omega

/-- The staged weight block is the weight array. -/
theorem weight_block (c : Dev nD) (t : Fin cfg1.N) (k : Fin 256) :
    (iblk1 V c 1 t : Vec Ideal S256 .f32) (ix1 k) = (V c main_arg4 : S256.Idx → EReal) (ix1 k) := by
  obtain ⟨-, i0, -⟩ := index_facts t
  unfold iblk1
  rw [View.read_apply]
  show V c main_arg4 _ = V c main_arg4 _
  refine congrArg (V c main_arg4) ?_
  funext a
  apply Fin.ext
  match a with
  | ⟨0, _⟩ => show win1_1.index t 0 * 256 + 1 * k.val = k.val; rw [i0]; omega

/-- The staged bias block is the bias array. -/
theorem bias_block (c : Dev nD) (t : Fin cfg1.N) (k : Fin 256) :
    (iblk1 V c 2 t : Vec Ideal S256 .f32) (ix1 k) = (V c main_arg5 : S256.Idx → EReal) (ix1 k) := by
  obtain ⟨-, -, i0, -⟩ := index_facts t
  unfold iblk1
  rw [View.read_apply]
  show V c main_arg5 _ = V c main_arg5 _
  refine congrArg (V c main_arg5) ?_
  funext a
  apply Fin.ext
  match a with
  | ⟨0, _⟩ => show win1_2.index t 0 * 256 + 1 * k.val = k.val; rw [i0]; omega

/-- The staged projection block is the projection matrix. -/
theorem matrix_block (c : Dev nD) (t : Fin cfg1.N) (cc : Fin 16) (k : Fin 256) :
    (iblk1 V c 3 t : Vec Ideal S16x256 .f32) (ix2 cc k) = (V c main_arg7 : S16x256.Idx → EReal) (ix2 cc k) := by
  obtain ⟨-, -, -, ⟨i0, i1⟩, -⟩ := index_facts t
  unfold iblk1
  rw [View.read_apply]
  show V c main_arg7 _ = V c main_arg7 _
  refine congrArg (V c main_arg7) ?_
  funext a
  apply Fin.ext
  match a with
  | ⟨0, _⟩ => show win1_3.index t 0 * 16 + 1 * cc.val = cc.val; rw [i0]; omega
  | ⟨1, _⟩ => show win1_3.index t 1 * 256 + 1 * k.val = k.val; rw [i1]; omega

/-- The stack a point works on. -/
def stackOf (t : Fin cfg1.N) : Fin 4 := ⟨t.val, by have h : cfg1.N = 4 := N_1; have := t.isLt; omega⟩

/-- What stack t writes back is block t of the projections of the arrays the launch finds. -/
theorem flushed_eq (c : Dev nD) (t : Fin cfg1.N) :
    (dat1 V c).flushed 4 t = ((cfg1.win 4).blk t).view.read (Elt Ideal)
      (projArr (V c main_arg1) (V c main_arg4) (V c main_arg5) (V c main_arg7)) := by
  show (cfg1.win 4).cut (grid1.coords t) ((dat1 V c).after 4 t) = _
  rw [after1_4]
  unfold out1_4
  rw [View.canon_unit_zero hz3]
  simp only [View.ld_unit_zero (S := S1x512x256) hz3, View.ld_unit_zero (S := S256) hz1, View.ld_unit_zero (S := S16x256) hz2]
  refine funext fun (j : S1x512x16.Idx) => ?_
  obtain ⟨u, l, cc, rfl⟩ : ∃ (u : Fin 1) (l : Fin 512) (cc : Fin 16), j = ix3 u l cc := ⟨j 0, j 1, j 2, eq_ix3 j⟩
  obtain rfl : u = 0 := Subsingleton.elim _ _
  show k1_pay1 (iblk1 V c 0 t) (iblk1 V c 1 t) (iblk1 V c 2 t) (iblk1 V c 3 t) (ix3 (0 : Fin 1) l cc)
    = projArr (V c main_arg1) (V c main_arg4) (V c main_arg5) (V c main_arg7)
        (((cfg1.win 4).blk t).view.emb (ix3 (0 : Fin 1) l cc))
  obtain ⟨-, -, -, -, o0, o1, o2⟩ := index_facts t
  have hemb : ((cfg1.win 4).blk t).view.emb (ix3 (0 : Fin 1) l cc) = ix3 (stackOf t) l cc := by
    funext a
    apply Fin.ext
    match a with
    | ⟨0, _⟩ => show win1_4.index t 0 * 1 + 1 * 0 = t.val; rw [o0]; omega
    | ⟨1, _⟩ => show win1_4.index t 1 * 512 + 1 * l.val = l.val; rw [o1]; omega
    | ⟨2, _⟩ => show win1_4.index t 2 * 16 + 1 * cc.val = cc.val; rw [o2]; omega
  rw [hemb, projArr_apply, normProj_apply']
  unfold projAt
  have e0 : (fun k => (iblk1 V c 0 t : Vec Ideal S1x512x256 .f32) (ix3 (0 : Fin 1) l k))
      = rowOf (V c main_arg1) (stackOf t) l :=
    funext fun k => batch_block V c t (ix3 (0 : Fin 1) l k) (ix3 (stackOf t) l k) rfl rfl rfl
  have e1 : vecOf (iblk1 V c 1 t) = vecOf (V c main_arg4) := funext fun k => weight_block V c t k
  have e2 : vecOf (iblk1 V c 2 t) = vecOf (V c main_arg5) := funext fun k => bias_block V c t k
  have e3 : matOf (iblk1 V c 3 t) = matOf (V c main_arg7) := funext fun a => funext fun k => matrix_block V c t a k
  rw [e0, e1, e2, e3]

/-- An index of the output array is in stack t's block iff each coordinate is in the block's range. -/
theorem mem_block (t : Fin cfg1.N) (i : S4x512x16.Idx) :
    i ∈ ((cfg1.win 4).blk t).view.set ↔ ∀ a : Fin 3, win1_4.index t a * S1x512x16.size a ≤ (i a).val
      ∧ (i a).val < win1_4.index t a * S1x512x16.size a + S1x512x16.size a := by
  show i ∈ ((View.whole main_v1).slice (win1_4.rect t)).set ↔ _
  rw [View.set_slice_whole, Rect.mem_set_unit]
  exact Iff.rfl

/-- Every index of the output array is in the block of the stack its first coordinate names. -/
theorem covered (i : S4x512x16.Idx) :
    ∃ t : Fin cfg1.N, (cfg1.win 4).flush t = true ∧ i ∈ ((cfg1.win 4).blk t).view.set := by
  have h0 : (i 0).val < 4 := (i 0).isLt
  have h1 : (i 1).val < 512 := (i 1).isLt
  have h2 : (i 2).val < 16 := (i 2).isLt
  have hN : cfg1.N = 4 := N_1
  refine ⟨⟨(i 0).val, by omega⟩, flush1_4 _, ?_⟩
  rw [mem_block]
  obtain ⟨-, -, -, -, o0, o1, o2⟩ := index_facts ⟨(i 0).val, by omega⟩
  intro a
  match a with
  | ⟨0, _⟩ =>
    show win1_4.index ⟨(i 0).val, _⟩ 0 * 1 ≤ (i 0).val ∧ (i 0).val < win1_4.index ⟨(i 0).val, _⟩ 0 * 1 + 1
    rw [o0]; show (i 0).val * 1 ≤ (i 0).val ∧ (i 0).val < (i 0).val * 1 + 1; omega
  | ⟨1, _⟩ =>
    show win1_4.index ⟨(i 0).val, _⟩ 1 * 512 ≤ (i 1).val ∧ (i 1).val < win1_4.index ⟨(i 0).val, _⟩ 1 * 512 + 512
    rw [o1]; omega
  | ⟨2, _⟩ =>
    show win1_4.index ⟨(i 0).val, _⟩ 2 * 16 ≤ (i 2).val ∧ (i 2).val < win1_4.index ⟨(i 0).val, _⟩ 2 * 16 + 16
    rw [o2]; omega

/-- The output array after the launch: the projections of the arrays the launch found. -/
theorem final (c : Dev nD) :
    (dat1 V c).arrAt 4 cfg1.N = projArr (V c main_arg1) (V c main_arg4) (V c main_arg5) (V c main_arg7) :=
  (dat1 V c).arrAt_eq_of_cover 4 _ (fun t _ => flushed_eq V c t) covered

end Cert.KernelIdeal.ArrNorm1

end
-- ==== Proof.Boundaries.lean ====
/-
  What the third launch finds in the two projected arrays.

  Between the second and the third launch the host only builds the expansion matrix and the bias row: none of its
  operations writes either projected array, so the third launch finds the first launch's output and the second
  launch's output as those launches left them. The second launch in turn finds its batch, weight, bias and matrix as
  launched, because the first launch writes none of them. So the third launch's first two operands are the
  projections of the two batches of the arguments.
-/
import proofs.«147179_j8899172237442_2_alg».proof.Proof.Gen.KernelIdeal.Frame
import proofs.«147179_j8899172237442_2_alg».proof.Proof.ArrNorm0
import proofs.«147179_j8899172237442_2_alg».proof.Proof.ArrNorm1

set_option maxRecDepth 16384

noncomputable section

open Idealize.ShloMosaic Idealize.ShloMosaic.TcCoe Idealize.SL.Sem

namespace Cert.KernelIdeal.Boundaries

open Cert.KernelIdeal Cert.KernelIdeal.Gen Idealize.ShloMosaic.ValueIdx Cert.PairLinear

variable (m : (ℓ : Loc nD τ sig) → Buf (Elt Ideal) ℓ) (ρ : Dev nD → PrngReg)

/-- No host operation before the third launch writes the first projected array. -/
theorem kept_first (c : Dev nD) : W5 m ρ c (Proc.devRef .tc main_v0) = W2 m ρ c (Proc.devRef .tc main_v0) :=
  calc W5 m ρ c (Proc.devRef .tc main_v0)
    _ = W4 m ρ c (Proc.devRef .tc main_v0) := StableHlo.after_of_forall_not_mem (b := Proc.devRef .tc main_v0) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := StableHlo.after_of_forall_not_mem (b := Proc.devRef .tc main_v0) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation before the third launch writes the second projected array. -/
theorem kept_second (c : Dev nD) : W5 m ρ c (Proc.devRef .tc main_v1) = W2 m ρ c (Proc.devRef .tc main_v1) :=
  calc W5 m ρ c (Proc.devRef .tc main_v1)
    _ = W4 m ρ c (Proc.devRef .tc main_v1) := StableHlo.after_of_forall_not_mem (b := Proc.devRef .tc main_v1) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The third launch's first operand: the projections of the first batch of the arguments. -/
theorem first_proj (c : Dev nD) :
    (V5 m ρ c main_v0 : S4x512x16.Idx → EReal)
      = projArr (m ((c : Thread nD τ).loc main_arg0)) (m ((c : Thread nD τ).loc main_arg2))
          (m ((c : Thread nD τ).loc main_arg3)) (m ((c : Thread nD τ).loc main_arg6)) :=
  (kept_first m ρ c).trans ((W2_of_ne m ρ c main_v0 (by decide)).trans ((W1_arr m ρ c 4).trans
    (ArrNorm0.final (V0 m ρ) c)))

/-- The third launch's second operand: the projections of the second batch of the arguments. -/
theorem second_proj (c : Dev nD) :
    (V5 m ρ c main_v1 : S4x512x16.Idx → EReal)
      = projArr (m ((c : Thread nD τ).loc main_arg1)) (m ((c : Thread nD τ).loc main_arg4))
          (m ((c : Thread nD τ).loc main_arg5)) (m ((c : Thread nD τ).loc main_arg7)) := by
  refine (kept_second m ρ c).trans ((W2_arr m ρ c 4).trans ((ArrNorm1.final (V1 m ρ) c).trans ?_))
  have e1 : V1 m ρ c main_arg1 = m ((c : Thread nD τ).loc main_arg1) := (W1_of_ne m ρ c main_arg1 (by decide)).trans rfl
  have e4 : V1 m ρ c main_arg4 = m ((c : Thread nD τ).loc main_arg4) := (W1_of_ne m ρ c main_arg4 (by decide)).trans rfl
  have e5 : V1 m ρ c main_arg5 = m ((c : Thread nD τ).loc main_arg5) := (W1_of_ne m ρ c main_arg5 (by decide)).trans rfl
  have e7 : V1 m ρ c main_arg7 = m ((c : Thread nD τ).loc main_arg7) := (W1_of_ne m ρ c main_arg7 (by decide)).trans rfl
  rw [e1, e4, e5, e7]

end Cert.KernelIdeal.Boundaries

end
-- ==== Proof.BodyPair.lean ====
/-
  The pairing body, read at an entry.

  The body holds 512 projected rows of the first batch and 128 projected rows of the second, each of 16 channels, a
  128 by 4096 matrix and a row of 4096 numbers. It multiplies the 512 by 16 array with the transpose of the 128 by 16
  array, so that entry (l, j) is the inner product over the 16 channels of row l and row j; multiplies every entry by
  the word of 1/16; multiplies the 512 by 128 result with the 128 by 4096 matrix; and adds the row of 4096 numbers to
  every row. Read at row l and column q the stored value is therefore the sum over j of the scaled inner product of
  rows l and j times the matrix entry (j, q), plus the q-th number of the row.
-/
import proofs.«147179_j8899172237442_2_alg».proof.Proof.Gen.KernelIdeal.Skeleton
import proofs.«147179_j8899172237442_2_alg».proof.Proof.Spec
import proofs.«147179_j8899172237442_2_alg».proof.Proof.LibMatmulRowsByCols
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.PairLinear

/-- The product over the channels: its dimension record contracts the 16 columns of the left operand with the 16 rows of the right. -/
theorem channelDot_apply (a : FVec Ideal S512x16 .bf16) (b : FVec Ideal S16x128 .bf16) (l : Fin 512) (j : Fin 128) :
    matmul dot_S512x16_S16x128_S512x128_1_0_0_1_n_n none a b (constant S512x128 .f32 0x00000000#32) (ix2 l j)
      = ∑ c : Fin 16, a (ix2 l c) * b (ix2 c j) :=
  MatmulRowsByCols.matmul_zero_apply dot_S512x16_S16x128_S512x128_1_0_0_1_n_n rfl rfl
    (fun j q => by
      unfold DotDims.lhsIdx
      rw [dif_neg (show ¬(0 : Fin S512x16.rank) ∈ dot_S512x16_S16x128_S512x128_1_0_0_1_n_n.lhsBatch by decide),
        dif_pos (show (0 : Fin S512x16.rank) ∈ dot_S512x16_S16x128_S512x128_1_0_0_1_n_n.lhsNonContracting by decide)]
      rfl)
    (fun j q => dot_S512x16_S16x128_S512x128_1_0_0_1_n_n.lhsIdx_val_of_single rfl j q)
    (fun j q => dot_S512x16_S16x128_S512x128_1_0_0_1_n_n.rhsIdx_val_of_single rfl j q)
    (fun j q => by
      unfold DotDims.rhsIdx
      rw [dif_neg (show ¬(1 : Fin S16x128.rank) ∈ dot_S512x16_S16x128_S512x128_1_0_0_1_n_n.rhsBatch by decide),
        dif_pos (show (1 : Fin S16x128.rank) ∈ dot_S512x16_S16x128_S512x128_1_0_0_1_n_n.rhsNonContracting by decide)]
      rfl)
    none a b l j

/-- The product over the 128 rows of the second batch: its dimension record contracts the 128 columns of the left operand with the 128 rows of the right. -/
theorem pairDot_apply (a : FVec Ideal S512x128 .bf16) (b : FVec Ideal S128x4096 .bf16) (l : Fin 512) (q : Fin 4096) :
    matmul dot_S512x128_S128x4096_S512x4096_1_0_0_1_n_n none a b (constant S512x4096 .f32 0x00000000#32) (ix2 l q)
      = ∑ j : Fin 128, a (ix2 l j) * b (ix2 j q) :=
  MatmulRowsByCols.matmul_zero_apply dot_S512x128_S128x4096_S512x4096_1_0_0_1_n_n rfl rfl
    (fun j q => by
      unfold DotDims.lhsIdx
      rw [dif_neg (show ¬(0 : Fin S512x128.rank) ∈ dot_S512x128_S128x4096_S512x4096_1_0_0_1_n_n.lhsBatch by decide),
        dif_pos (show (0 : Fin S512x128.rank) ∈ dot_S512x128_S128x4096_S512x4096_1_0_0_1_n_n.lhsNonContracting by decide)]
      rfl)
    (fun j q => dot_S512x128_S128x4096_S512x4096_1_0_0_1_n_n.lhsIdx_val_of_single rfl j q)
    (fun j q => dot_S512x128_S128x4096_S512x4096_1_0_0_1_n_n.rhsIdx_val_of_single rfl j q)
    (fun j q => by
      unfold DotDims.rhsIdx
      rw [dif_neg (show ¬(1 : Fin S128x4096.rank) ∈ dot_S512x128_S128x4096_S512x4096_1_0_0_1_n_n.rhsBatch by decide),
        dif_pos (show (1 : Fin S128x4096.rank) ∈ dot_S512x128_S128x4096_S512x4096_1_0_0_1_n_n.rhsNonContracting by decide)]
      rfl)
    none a b l q

/-- The stored value at row l, column q. -/
theorem pairBody_apply (v0 : Vec Ideal S1x512x16 .f32) (v2 : Vec Ideal S1x128x16 .f32) (v10 : Vec Ideal S128x4096 .bf16)
    (v14 : Vec Ideal S1x4096 .f32) (l : Fin 512) (q : Fin 4096) :
    k2_pay1 (F := Ideal) v0 v2 v10 v14 (ix3 (0 : Fin 1) l q)
      = (∑ j : Fin 128, ((∑ c : Fin 16, v0 (ix3 (0 : Fin 1) l c) * v2 (ix3 (0 : Fin 1) j c)) * cInv16) * v10 (ix2 j q))
        + v14 (ix2 (0 : Fin 1) q) := by
  unfold k2_pay1
  dsimp only
  refine (shapeCast_ab_1ab_apply _ shapeCasts_S512x4096_S1x512x4096 (0 : Fin 1) l q).trans ?_
  rw [addf_apply]
  refine congrArg₂ (· + ·) ?_ ?_
  · refine (pairDot_apply _ _ l q).trans ?_
    refine Finset.sum_congr rfl fun j _ => ?_
    rw [shapeCast_self]
    refine congrArg₂ (· * ·) ?_ rfl
    rw [truncf_apply, mulf_apply, broadcast_apply]
    refine congrArg₂ (· * ·) ?_ rfl
    refine (channelDot_apply _ _ l j).trans ?_
    refine Finset.sum_congr rfl fun c _ => ?_
    refine congrArg₂ (· * ·) ?_ ?_
    · rw [truncf_apply]
      exact shapeCast_1ab_ab_apply v0 shapeCasts_S1x512x16_S512x16 l c
    · refine (transpose_ix2_apply _ transposes_S128x16_p1_0_S16x128 c j).trans ?_
      rw [truncf_apply]
      exact shapeCast_1ab_ab_apply v2 shapeCasts_S1x128x16_S128x16 j c
  · refine (broadcastTo_1b_ab_apply _ broadcasts_S1x4096_S512x4096 l q).trans ?_
    rw [shapeCast_self]

end Cert.KernelIdeal.Body

end
-- ==== Proof.ArrPair.lean ====
/-
  The third launch's output array.

  The launch walks a 4 by 4 grid. At point (s, g) it stages stack s of the first projected batch (512 rows of 16
  channels), rows 128 g to 128 g + 127 of stack s of the second, the whole 128 by 4096 expansion matrix and the 1 by
  4096 bias row, runs the body, and writes the 512 by 4096 result back as columns 4096 g to 4096 g + 4095 of rows
  (s, ., .) of the output. The body's result at (l, r) is the sum over the 128 staged rows j of
  ((inner product over the 16 channels of row l and row j) / 16) * expansion(j, r), plus bias(r). So the output array
  ends holding, at (s, l, q), that expression with g = q / 4096, r = q mod 4096; the sixteen write-backs cover it.
-/
import proofs.«147179_j8899172237442_2_alg».proof.Proof.Gen.KernelIdeal.Frame
import proofs.«147179_j8899172237442_2_alg».proof.Proof.BodyPair
import Idealize.ShloMosaic.Lib.Pipeline.Value

noncomputable section

open Idealize.ShloMosaic Idealize.ShloMosaic.TcCoe Idealize.SL.Sem
open Idealize.ShloMosaic.Pipeline (Dat)

namespace Cert.KernelIdeal.ArrPair

open Cert.KernelIdeal Cert.KernelIdeal.Gen Cert.KernelIdeal.Body Idealize.ShloMosaic.ValueIdx Cert.PairLinear

/-- Of output column q, the staged row j of the second batch: row 128 (q / 4096) + j. -/
def rowAt (q : Fin 16384) (j : Fin 128) : Fin 512 :=
  ⟨q.val / 4096 * 128 + j.val, by have := q.isLt; have := j.isLt; omega⟩

/-- Of output column q, the column of the expansion matrix and of the bias row: q mod 4096. -/
def lane (q : Fin 16384) : Fin 4096 := ⟨q.val % 4096, Nat.mod_lt _ (by decide)⟩

/-- The output at stack s, row l, column q. -/
def pairAt (hl hp : (⟨3, ![4, 512, 16]⟩ : Shape).Idx → EReal) (E : (⟨2, ![128, 4096]⟩ : Shape).Idx → EReal)
    (bias : (⟨2, ![1, 4096]⟩ : Shape).Idx → EReal) (s : Fin 4) (l : Fin 512) (q : Fin 16384) : EReal :=
  (∑ j : Fin 128, ((∑ cc : Fin 16, hl (ix3 s l cc) * hp (ix3 s (rowAt q j) cc)) * cInv16) * E (ix2 j (lane q)))
    + bias (ix2 (0 : Fin 1) (lane q))

/-- The output array. -/
def pairArr (hl hp : (⟨3, ![4, 512, 16]⟩ : Shape).Idx → EReal) (E : (⟨2, ![128, 4096]⟩ : Shape).Idx → EReal)
    (bias : (⟨2, ![1, 4096]⟩ : Shape).Idx → EReal) : (⟨3, ![4, 512, 16384]⟩ : Shape).Idx → EReal :=
  fun i => pairAt hl hp E bias ⟨(i 0).val, (i 0).isLt⟩ ⟨(i 1).val, (i 1).isLt⟩ ⟨(i 2).val, (i 2).isLt⟩

theorem pairArr_apply (hl hp : (⟨3, ![4, 512, 16]⟩ : Shape).Idx → EReal) (E : (⟨2, ![128, 4096]⟩ : Shape).Idx → EReal)
    (bias : (⟨2, ![1, 4096]⟩ : Shape).Idx → EReal) (s : Fin 4) (l : Fin 512) (q : Fin 16384) :
    pairArr hl hp E bias (ix3 s l q) = pairAt hl hp E bias s l q := rfl

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at grid point t = 4 s + g. -/
theorem index_facts (t : Fin cfg2.N) :
    (win2_0.index t 0 = t.val / 4 ∧ win2_0.index t 1 = 0 ∧ win2_0.index t 2 = 0)
    ∧ (win2_1.index t 0 = t.val / 4 ∧ win2_1.index t 1 = t.val % 4 ∧ win2_1.index t 2 = 0)
    ∧ (win2_2.index t 0 = 0 ∧ win2_2.index t 1 = 0)
    ∧ (win2_3.index t 0 = 0 ∧ win2_3.index t 1 = 0)
    ∧ (win2_4.index t 0 = t.val / 4 ∧ win2_4.index t 1 = 0 ∧ win2_4.index t 2 = t.val % 4) := by
  rcases fin_N2 t with rfl | rfl | rfl | rfl | rfl | rfl | rfl | rfl | rfl | rfl | rfl | rfl | rfl | rfl | rfl | rfl <;> decide

/-- The staged block of the first projected batch is stack t / 4. -/
theorem left_block (c : Dev nD) (t : Fin cfg2.N) (x : S1x512x16.Idx) (k : S4x512x16.Idx)
    (hk0 : (k 0).val = t.val / 4) (hk1 : (k 1).val = (x 1).val) (hk2 : (k 2).val = (x 2).val) :
    (iblk2 V c 0 t : Vec Ideal S1x512x16 .f32) x = (V c main_v0 : S4x512x16.Idx → EReal) k := by
  obtain ⟨⟨i0, i1, i2⟩, -⟩ := index_facts t
  unfold iblk2
  rw [View.read_apply]
  show V c main_v0 _ = V c main_v0 _
  refine congrArg (V c main_v0) ?_
  funext a
  apply Fin.ext
  have h0 : (x 0).val < 1 := (x 0).isLt
  match a with
  | ⟨0, _⟩ => show win2_0.index t 0 * 1 + 1 * (x 0).val = (k 0).val; rw [i0, hk0]; omega
  | ⟨1, _⟩ => show win2_0.index t 1 * 512 + 1 * (x 1).val = (k 1).val; rw [i1, hk1]; omega
  | ⟨2, _⟩ => show win2_0.index t 2 * 16 + 1 * (x 2).val = (k 2).val; rw [i2, hk2]; omega

/-- The staged block of the second projected batch is rows 128 (t mod 4) onward of stack t / 4. -/
theorem right_block (c : Dev nD) (t : Fin cfg2.N) (x : S1x128x16.Idx) (k : S4x512x16.Idx)
    (hk0 : (k 0).val = t.val / 4) (hk1 : (k 1).val = t.val % 4 * 128 + (x 1).val) (hk2 : (k 2).val = (x 2).val) :
    (iblk2 V c 1 t : Vec Ideal S1x128x16 .f32) x = (V c main_v1 : S4x512x16.Idx → EReal) k := by
  obtain ⟨-, ⟨i0, i1, i2⟩, -⟩ := index_facts t
  unfold iblk2
  rw [View.read_apply]
  show V c main_v1 _ = V c main_v1 _
  refine congrArg (V c main_v1) ?_
  funext a
  apply Fin.ext
  have h0 : (x 0).val < 1 := (x 0).isLt
  match a with
  | ⟨0, _⟩ => show win2_1.index t 0 * 1 + 1 * (x 0).val = (k 0).val; rw [i0, hk0]; omega
  | ⟨1, _⟩ => show win2_1.index t 1 * 128 + 1 * (x 1).val = (k 1).val; rw [i1, hk1]; omega
  | ⟨2, _⟩ => show win2_1.index t 2 * 16 + 1 * (x 2).val = (k 2).val; rw [i2, hk2]; omega

/-- The staged expansion block is the expansion matrix. -/
theorem expand_block (c : Dev nD) (t : Fin cfg2.N) (x : S128x4096.Idx) (k : S128x4096.Idx)
    (hk0 : (k 0).val = (x 0).val) (hk1 : (k 1).val = (x 1).val) :
    (iblk2 V c 2 t : Vec Ideal S128x4096 .bf16) x = (V c main_v11 : S128x4096.Idx → EReal) k := by
  obtain ⟨-, -, ⟨i0, i1⟩, -⟩ := index_facts t
  unfold iblk2
  rw [View.read_apply]
  show V c main_v11 _ = V c main_v11 _
  refine congrArg (V c main_v11) ?_
  funext a
  apply Fin.ext
  match a with
  | ⟨0, _⟩ => show win2_2.index t 0 * 128 + 1 * (x 0).val = (k 0).val; rw [i0, hk0]; omega
  | ⟨1, _⟩ => show win2_2.index t 1 * 4096 + 1 * (x 1).val = (k 1).val; rw [i1, hk1]; omega

/-- The staged bias block is the bias row. -/
theorem biasRow_block (c : Dev nD) (t : Fin cfg2.N) (x : S1x4096.Idx) (k : S1x4096.Idx)
    (hk0 : (k 0).val = (x 0).val) (hk1 : (k 1).val = (x 1).val) :
    (iblk2 V c 3 t : Vec Ideal S1x4096 .f32) x = (V c main_v15 : S1x4096.Idx → EReal) k := by
  obtain ⟨-, -, -, ⟨i0, i1⟩, -⟩ := index_facts t
  unfold iblk2
  rw [View.read_apply]
  show V c main_v15 _ = V c main_v15 _
  refine congrArg (V c main_v15) ?_
  funext a
  apply Fin.ext
  match a with
  | ⟨0, _⟩ => show win2_3.index t 0 * 1 + 1 * (x 0).val = (k 0).val; rw [i0, hk0]; omega
  | ⟨1, _⟩ => show win2_3.index t 1 * 4096 + 1 * (x 1).val = (k 1).val; rw [i1, hk1]; omega

/-- The stack a grid point works on. -/
def stackOf (t : Fin cfg2.N) : Fin 4 := ⟨t.val / 4, by have h : cfg2.N = 16 := N_2; have := t.isLt; omega⟩

/-- The output column a grid point writes for the staged column r. -/
def colOf (t : Fin cfg2.N) (r : Fin 4096) : Fin 16384 :=
  ⟨t.val % 4 * 4096 + r.val, by have := r.isLt; omega⟩

/-- What a grid point writes back is its block of the output array's function of the arrays the launch finds. -/
theorem flushed_eq (c : Dev nD) (t : Fin cfg2.N) :
    (dat2 V c).flushed 4 t = ((cfg2.win 4).blk t).view.read (Elt Ideal)
      (pairArr (V c main_v0) (V c main_v1) (V c main_v11) (V c main_v15)) := by
  show (cfg2.win 4).cut (grid2.coords t) ((dat2 V c).after 4 t) = _
  rw [after2_4]
  unfold out2_4
  rw [View.canon_unit_zero hz3]
  simp only [View.ld_unit_zero (S := S1x512x16) hz3, View.ld_unit_zero (S := S1x128x16) hz3,
    View.ld_unit_zero (S := S128x4096) hz2, View.ld_unit_zero (S := S1x4096) hz2]
  refine funext fun (j : S1x512x4096.Idx) => ?_
  obtain ⟨u, l, r, rfl⟩ : ∃ (u : Fin 1) (l : Fin 512) (r : Fin 4096), j = ix3 u l r := ⟨j 0, j 1, j 2, eq_ix3 j⟩
  obtain rfl : u = 0 := Subsingleton.elim _ _
  show k2_pay1 (iblk2 V c 0 t) (iblk2 V c 1 t) (iblk2 V c 2 t) (iblk2 V c 3 t) (ix3 (0 : Fin 1) l r)
    = pairArr (V c main_v0) (V c main_v1) (V c main_v11) (V c main_v15)
        (((cfg2.win 4).blk t).view.emb (ix3 (0 : Fin 1) l r))
  obtain ⟨-, -, -, -, o0, o1, o2⟩ := index_facts t
  have hr : r.val < 4096 := r.isLt
  have hemb : ((cfg2.win 4).blk t).view.emb (ix3 (0 : Fin 1) l r) = ix3 (stackOf t) l (colOf t r) := by
    funext a
    apply Fin.ext
    match a with
    | ⟨0, _⟩ => show win2_4.index t 0 * 1 + 1 * 0 = t.val / 4; rw [o0]; omega
    | ⟨1, _⟩ => show win2_4.index t 1 * 512 + 1 * l.val = l.val; rw [o1]; omega
    | ⟨2, _⟩ => show win2_4.index t 2 * 4096 + 1 * r.val = t.val % 4 * 4096 + r.val; rw [o2]; omega
  rw [hemb, pairArr_apply, pairBody_apply]
  unfold pairAt
  refine congrArg₂ (· + ·) (Finset.sum_congr rfl fun j _ => congrArg₂ (· * ·)
      (congrArg (· * cInv16) (Finset.sum_congr rfl fun cc _ => congrArg₂ (· * ·) ?_ ?_)) ?_) ?_
  · exact left_block V c t (ix3 (0 : Fin 1) l cc) (ix3 (stackOf t) l cc) rfl rfl rfl
  · refine right_block V c t (ix3 (0 : Fin 1) j cc) (ix3 (stackOf t) (rowAt (colOf t r) j) cc) rfl ?_ rfl
    show (t.val % 4 * 4096 + r.val) / 4096 * 128 + j.val = t.val % 4 * 128 + j.val
    omega
  · refine expand_block V c t (ix2 j r) (ix2 j (lane (colOf t r))) rfl ?_
    show (t.val % 4 * 4096 + r.val) % 4096 = r.val
    omega
  · refine biasRow_block V c t (ix2 (0 : Fin 1) r) (ix2 (0 : Fin 1) (lane (colOf t r))) rfl ?_
    show (t.val % 4 * 4096 + r.val) % 4096 = r.val
    omega

/-- An index of the output array is in a grid point's block iff each coordinate is in the block's range. -/
theorem mem_block (t : Fin cfg2.N) (i : S4x512x16384.Idx) :
    i ∈ ((cfg2.win 4).blk t).view.set ↔ ∀ a : Fin 3, win2_4.index t a * S1x512x4096.size a ≤ (i a).val
      ∧ (i a).val < win2_4.index t a * S1x512x4096.size a + S1x512x4096.size a := by
  show i ∈ ((View.whole main_v16).slice (win2_4.rect t)).set ↔ _
  rw [View.set_slice_whole, Rect.mem_set_unit]
  exact Iff.rfl

/-- Every index (s, l, q) of the output array is in the block of grid point 4 s + q / 4096. -/
theorem covered (i : S4x512x16384.Idx) :
    ∃ t : Fin cfg2.N, (cfg2.win 4).flush t = true ∧ i ∈ ((cfg2.win 4).blk t).view.set := by
  have h0 : (i 0).val < 4 := (i 0).isLt
  have h1 : (i 1).val < 512 := (i 1).isLt
  have h2 : (i 2).val < 16384 := (i 2).isLt
  have hN : cfg2.N = 16 := N_2
  refine ⟨⟨(i 0).val * 4 + (i 2).val / 4096, by omega⟩, flush2_4 _, ?_⟩
  rw [mem_block]
  obtain ⟨-, -, -, -, o0, o1, o2⟩ := index_facts ⟨(i 0).val * 4 + (i 2).val / 4096, by omega⟩
  intro a
  match a with
  | ⟨0, _⟩ =>
    show win2_4.index ⟨(i 0).val * 4 + (i 2).val / 4096, _⟩ 0 * 1 ≤ (i 0).val
      ∧ (i 0).val < win2_4.index ⟨(i 0).val * 4 + (i 2).val / 4096, _⟩ 0 * 1 + 1
    rw [o0]; show ((i 0).val * 4 + (i 2).val / 4096) / 4 * 1 ≤ (i 0).val ∧ (i 0).val < ((i 0).val * 4 + (i 2).val / 4096) / 4 * 1 + 1
    omega
  | ⟨1, _⟩ =>
    show win2_4.index ⟨(i 0).val * 4 + (i 2).val / 4096, _⟩ 1 * 512 ≤ (i 1).val
      ∧ (i 1).val < win2_4.index ⟨(i 0).val * 4 + (i 2).val / 4096, _⟩ 1 * 512 + 512
    rw [o1]; omega
  | ⟨2, _⟩ =>
    show win2_4.index ⟨(i 0).val * 4 + (i 2).val / 4096, _⟩ 2 * 4096 ≤ (i 2).val
      ∧ (i 2).val < win2_4.index ⟨(i 0).val * 4 + (i 2).val / 4096, _⟩ 2 * 4096 + 4096
    rw [o2]; show ((i 0).val * 4 + (i 2).val / 4096) % 4 * 4096 ≤ (i 2).val ∧ (i 2).val < ((i 0).val * 4 + (i 2).val / 4096) % 4 * 4096 + 4096
    omega

/-- The output array after the launch. -/
theorem final (c : Dev nD) :
    (dat2 V c).arrAt 4 cfg2.N = pairArr (V c main_v0) (V c main_v1) (V c main_v11) (V c main_v15) :=
  (dat2 V c).arrAt_eq_of_cover 4 _ (fun t _ => flushed_eq V c t) covered

end Cert.KernelIdeal.ArrPair

end
-- ==== Proof.HostGlue.lean ====
/-
  What the host operations around the three launches leave in three buffers, read at an entry.

  Before the third launch the host forms, from the 32 by 1 array u and the length-32 array v, a 128 by 4096 matrix
  E and a row t of 4096 numbers: with the 4096 columns numbered j' * 32 + o (j' below 128, o below 32),
  E(j, j' * 32 + o) is u(o) when j = j' and zero otherwise (the identity matrix of size 128, each entry multiplied by
  the row u), and t(j' * 32 + o) = v(o). After the third launch the host only regroups the 16384 columns of its
  output, numbered p * 32 + o, as 512 by 32.
-/
import proofs.«147179_j8899172237442_2_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostGlue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Column j'*32+o of the 4096 columns. -/
def col (j' : Fin 128) (o : Fin 32) : Fin 4096 := ⟨j'.val * 32 + o.val, by have := j'.isLt; have := o.isLt; omega⟩
/-- Column p*32+o of the 16384 columns. -/
def wideCol (p : Fin 512) (o : Fin 32) : Fin 16384 := ⟨p.val * 32 + o.val, by have := p.isLt; have := o.isLt; omega⟩

/-! ## Layout operations read at an entry -/

section Layout

variable {α : Type}

/-- The 16384 columns, numbered p * 32 + o, regrouped as 512 by 32. -/
theorem regroup_apply (x : S4x512x16384.Idx → α) (s : Fin 4) (l p : Fin 512) (o : Fin 32) :
    shapeCast S4x512x512x32 x shapeCasts_S4x512x16384_S4x512x512x32 (ix4 s l p o) = x (ix3 s l (wideCol p o)) :=
  shapeCast_apply x shapeCasts_S4x512x16384_S4x512x512x32 (ix4 s l p o) (ix3 s l (wideCol p o)) (by
    rw [Shape.rowMajor_val_three, Shape.rowMajor_val_four]
    show (s.val * 512 + l.val) * 16384 + (p.val * 32 + o.val) = ((s.val * 512 + l.val) * 512 + p.val) * 32 + o.val
    omega)

/-- A 1 by 32 array repeated down 128 rows reads its entry in the column. -/
theorem rows_repeat_apply (y : S1x32.Idx → α) (j : Fin 128) (o : Fin 32) :
    broadcastInDim S128x32 ![0, 1] bcast_S1x32_S128x32_0_1 y (ix2 j o) = y (ix2 (0 : Fin 1) o) :=
  broadcastInDim_apply _ bcast_S1x32_S128x32_0_1 y (ix2 j o) (ix2 (0 : Fin 1) o) (fun a => match a with
    | ⟨0, _⟩ => by show 0 = if (1 : Nat) = 1 then 0 else j.val; rw [if_pos rfl]
    | ⟨1, _⟩ => by show o.val = if (32 : Nat) = 1 then 0 else o.val; rw [if_neg (by decide)])

/-- A 128 by 32 array laid out as 4096 numbers reads, at j' * 32 + o, its entry (j', o). -/
theorem flatten_apply (y : S128x32.Idx → α) (j' : Fin 128) (o : Fin 32) :
    shapeCast S4096 y shapeCasts_S128x32_S4096 (ix1 (col j' o)) = y (ix2 j' o) :=
  shapeCast_apply y shapeCasts_S128x32_S4096 (ix1 (col j' o)) (ix2 j' o) (by
    rw [Shape.rowMajor_val_two, Shape.rowMajor_val_one]
    rfl)

end Layout

/-! ## The identity matrix times a row, entry by entry -/

section Kron

variable {α : Type}

/-- A 128 by 1 by 128 by 32 array laid out as 128 rows of 4096 numbers reads, at row j and column j' * 32 + o,
    its entry (j, 0, j', o). -/
theorem kron_flatten_apply (z : S128x1x128x32.Idx → α) (j j' : Fin 128) (o : Fin 32) :
    shapeCast S128x4096 z shapeCasts_S128x1x128x32_S128x4096 (ix2 j (col j' o)) = z (ix4 j (0 : Fin 1) j' o) :=
  shapeCast_apply z shapeCasts_S128x1x128x32_S128x4096 (ix2 j (col j' o)) (ix4 j (0 : Fin 1) j' o) (by
    rw [Shape.rowMajor_val_four, Shape.rowMajor_val_two]
    show ((j.val * 1 + 0) * 128 + j'.val) * 32 + o.val = j.val * 4096 + (j'.val * 32 + o.val)
    omega)

/-- A 128 by 1 by 128 by 1 array repeated along its last axis. -/
theorem spread_last_apply (y : S128x1x128x1.Idx → α) (j j' : Fin 128) (o : Fin 32) :
    broadcastInDim S128x1x128x32 ![0, 1, 2, 3] bcast_S128x1x128x1_S128x1x128x32_0_1_2_3 y (ix4 j (0 : Fin 1) j' o)
      = y (ix4 j (0 : Fin 1) j' (0 : Fin 1)) :=
  broadcastInDim_apply _ bcast_S128x1x128x1_S128x1x128x32_0_1_2_3 y (ix4 j (0 : Fin 1) j' o)
    (ix4 j (0 : Fin 1) j' (0 : Fin 1)) (fun a => match a with
    | ⟨0, _⟩ => by show j.val = if (128 : Nat) = 1 then 0 else j.val; rw [if_neg (by decide)]
    | ⟨1, _⟩ => by show 0 = if (1 : Nat) = 1 then 0 else 0; rw [if_pos rfl]
    | ⟨2, _⟩ => by show j'.val = if (128 : Nat) = 1 then 0 else j'.val; rw [if_neg (by decide)]
    | ⟨3, _⟩ => by show 0 = if (1 : Nat) = 1 then 0 else o.val; rw [if_pos rfl])

/-- A 128 by 128 matrix placed on the first and third of four axes. -/
theorem matrix_on_axes_apply (e : S128x128.Idx → α) (j j' : Fin 128) :
    broadcastInDim S128x1x128x1 ![0, 2] bcast_S128x128_S128x1x128x1_0_2 e (ix4 j (0 : Fin 1) j' (0 : Fin 1))
      = e (ix2 j j') :=
  broadcastInDim_apply _ bcast_S128x128_S128x1x128x1_0_2 e (ix4 j (0 : Fin 1) j' (0 : Fin 1)) (ix2 j j')
    (fun a => match a with
    | ⟨0, _⟩ => by show j.val = if (128 : Nat) = 1 then 0 else j.val; rw [if_neg (by decide)]
    | ⟨1, _⟩ => by show j'.val = if (128 : Nat) = 1 then 0 else j'.val; rw [if_neg (by decide)])

/-- A 1 by 1 by 1 by 32 array repeated along its first and third axes. -/
theorem spread_rows_apply (y : S1x1x1x32.Idx → α) (j j' : Fin 128) (o : Fin 32) :
    broadcastInDim S128x1x128x32 ![0, 1, 2, 3] bcast_S1x1x1x32_S128x1x128x32_0_1_2_3 y (ix4 j (0 : Fin 1) j' o)
      = y (ix4 (0 : Fin 1) (0 : Fin 1) (0 : Fin 1) o) :=
  broadcastInDim_apply _ bcast_S1x1x1x32_S128x1x128x32_0_1_2_3 y (ix4 j (0 : Fin 1) j' o)
    (ix4 (0 : Fin 1) (0 : Fin 1) (0 : Fin 1) o) (fun a => match a with
    | ⟨0, _⟩ => by show 0 = if (1 : Nat) = 1 then 0 else j.val; rw [if_pos rfl]
    | ⟨1, _⟩ => by show 0 = if (1 : Nat) = 1 then 0 else 0; rw [if_pos rfl]
    | ⟨2, _⟩ => by show 0 = if (1 : Nat) = 1 then 0 else j'.val; rw [if_pos rfl]
    | ⟨3, _⟩ => by show o.val = if (32 : Nat) = 1 then 0 else o.val; rw [if_neg (by decide)])

/-- A 1 by 32 array placed on the second and fourth of four axes. -/
theorem row_on_axes_apply (r : S1x32.Idx → α) (o : Fin 32) :
    broadcastInDim S1x1x1x32 ![1, 3] bcast_S1x32_S1x1x1x32_1_3 r (ix4 (0 : Fin 1) (0 : Fin 1) (0 : Fin 1) o)
      = r (ix2 (0 : Fin 1) o) :=
  broadcastInDim_apply _ bcast_S1x32_S1x1x1x32_1_3 r (ix4 (0 : Fin 1) (0 : Fin 1) (0 : Fin 1) o) (ix2 (0 : Fin 1) o)
    (fun a => match a with
    | ⟨0, _⟩ => by show 0 = if (1 : Nat) = 1 then 0 else 0; rw [if_pos rfl]
    | ⟨1, _⟩ => by show o.val = if (32 : Nat) = 1 then 0 else o.val; rw [if_neg (by decide)])

/-- A 32 by 1 array as a vector of 32 numbers. -/
theorem column_as_vector_apply (u : S32x1.Idx → α) (o : Fin 32) :
    shapeCast S32 u shapeCasts_S32x1_S32 (ix1 o) = u (ix2 o (0 : Fin 1)) :=
  shapeCast_apply u shapeCasts_S32x1_S32 (ix1 o) (ix2 o (0 : Fin 1)) (by
    rw [Shape.rowMajor_val_two, Shape.rowMajor_val_one]
    show o.val * 1 + 0 = o.val
    omega)

end Kron

/-- The identity matrix of size 128 as the host forms it: the row number, plus zero, compared with the column
    number, the truth value read as a number. -/
theorem eye_apply (j j' : Fin 128) :
    (uitofp .f32 (cmpi .eq (addi (iotaInDim S128x128 32 0) (broadcastInDim S128x128 ![] bcast_S_S128x128 (constantI S_ 32 0#32)))
      (iotaInDim S128x128 32 1)) : FVec Ideal S128x128 .f32) (ix2 j j') = (if j = j' then (1 : EReal) else 0 : EReal) := by
  show (((BitVec.ofBool (BitVec.ofNat 32 j.val + 0#32 == BitVec.ofNat 32 j'.val)).toNat : ℝ) : EReal) = _
  by_cases h : j = j'
  · subst h
    rw [if_pos rfl, BitVec.add_zero, beq_self_eq_true]
    simp
  · have hne : (BitVec.ofNat 32 j.val + 0#32 == BitVec.ofNat 32 j'.val) = false := by
      rw [BitVec.add_zero]
      refine beq_false_of_ne fun h' => h (Fin.ext ?_)
      have h2 := congrArg BitVec.toNat h'
      simp only [BitVec.toNat_ofNat] at h2
      have := j.isLt
      have := j'.isLt
      omega
    rw [if_neg h, hne]
    simp

/-! ## The two arguments the host reads are as launched -/

/-- Neither of the first two launches writes the 32 by 1 array. -/
theorem W2_arg8 (c : Dev nD) : W2 m ρ c (Proc.devRef .tc main_arg8) = m ((c : Thread nD τ).loc main_arg8) :=
  (W2_of_ne m ρ c main_arg8 (by decide)).trans ((W1_of_ne m ρ c main_arg8 (by decide)).trans rfl)

/-- Neither of the first two launches, nor the host operations up to the product of the identity matrix with the
    row, writes the length-32 array. -/
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
        simp only [hostOps2_1, List.flatten_cons, List.flatten_nil, List.append_nil, List.cons_append, List.nil_append,
          List.Forall, StableHlo.nullary_writes, StableHlo.unary_writes, StableHlo.binary_writes,
          StableHlo.reshape_writes, Finset.mem_singleton]
        repeat' apply And.intro
        all_goals exact StableHlo.devRef_ne_of_ne (by decide)))
    _ = W2 m ρ c (Proc.devRef .tc main_arg9) := StableHlo.after_of_forall_not_mem (b := Proc.devRef .tc main_arg9) _ _ (List.forall_iff_forall_mem.mp (by
        simp only [hostOps2, List.flatten_cons, List.flatten_nil, List.append_nil, List.cons_append, List.nil_append,
          List.Forall, StableHlo.nullary_writes, StableHlo.unary_writes, StableHlo.binary_writes,
          StableHlo.reshape_writes, Finset.mem_singleton]
        repeat' apply And.intro
        all_goals exact StableHlo.devRef_ne_of_ne (by decide)))
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

/-! ## The three buffers -/

/-- After the third launch the host regroups the 16384 columns, numbered p * 32 + o, as 512 by 32. -/
theorem result_tail (c : Dev nD) (s : Fin 4) (l p : Fin 512) (o : Fin 32) :
    (W7 m ρ c (Proc.devRef .tc main_v17) : S4x512x512x32.Idx → EReal) (ix4 s l p o)
      = (W6 m ρ c (Proc.devRef .tc main_v16) : S4x512x16384.Idx → EReal) (ix3 s l (wideCol p o)) := by
  show StableHlo.after hostOps3 (W6 m ρ c) (Proc.devRef .tc main_v17) _ = _
  generalize W6 m ρ c = V
  open StableHlo in after_results
  exact regroup_apply (V (Proc.devRef .tc main_v16)) s l p o

/-- The row of 4096 numbers the third launch adds: the length-32 array repeated 128 times. -/
theorem tiledBias_apply (c : Dev nD) (j' : Fin 128) (o : Fin 32) :
    (V5 m ρ c main_v15 : S1x4096.Idx → EReal) (ix2 (0 : Fin 1) (col j' o))
      = (m ((c : Thread nD τ).loc main_arg9) : S32.Idx → EReal) (ix1 o) := by
  refine Eq.trans ?_ (congrFun (W4_arg9 m ρ c) (ix1 o))
  show StableHlo.after hostOps2_2 (W4 m ρ c) (Proc.devRef .tc main_v15) _ = _
  generalize W4 m ρ c = V
  open StableHlo in after_results
  refine (shapeCast_a_1a_apply _ shapeCasts_S4096_S1x4096 (0 : Fin 1) (col j' o)).trans ?_
  refine (flatten_apply _ j' o).trans ?_
  refine (rows_repeat_apply _ j' o).trans ?_
  exact shapeCast_a_1a_apply (V (Proc.devRef .tc main_arg9)) shapeCasts_S32_S1x32 (0 : Fin 1) o

/-- The matrix the third launch multiplies by: the identity matrix of size 128, each entry multiplied by the row of
    32 numbers. -/
theorem expand_apply (c : Dev nD) (j j' : Fin 128) (o : Fin 32) :
    (V5 m ρ c main_v11 : S128x4096.Idx → EReal) (ix2 j (col j' o))
      = (if j = j' then (m ((c : Thread nD τ).loc main_arg8) : S32x1.Idx → EReal) (ix2 o (0 : Fin 1)) else (0 : EReal) : EReal) := by
  refine Eq.trans ?_ (congrArg (fun U : S32x1.Idx → EReal => (if j = j' then U (ix2 o (0 : Fin 1)) else (0 : EReal) : EReal))
    (W2_arg8 m ρ c))
  show StableHlo.after hostOps2_2 (W4 m ρ c) (Proc.devRef .tc main_v11) _ = _
  open StableHlo in after_results
  generalize W2 m ρ c (Proc.devRef .tc main_arg8) = U
  show (truncf .bf16 (shapeCast S128x4096
      (mulf (F := Ideal) (φ := .f32)
        (broadcastInDim S128x1x128x32 ![0, 1, 2, 3] bcast_S128x1x128x1_S128x1x128x32_0_1_2_3
          (broadcastInDim S128x1x128x1 ![0, 2] bcast_S128x128_S128x1x128x1_0_2
            (uitofp .f32 (cmpi .eq (addi (iotaInDim S128x128 32 0)
              (broadcastInDim S128x128 ![] bcast_S_S128x128 (constantI S_ 32 0#32))) (iotaInDim S128x128 32 1)))))
        (broadcastInDim S128x1x128x32 ![0, 1, 2, 3] bcast_S1x1x1x32_S128x1x128x32_0_1_2_3
          (broadcastInDim S1x1x1x32 ![1, 3] bcast_S1x32_S1x1x1x32_1_3
            (shapeCast S1x32 (shapeCast S32 (U : S32x1.Idx → EReal) shapeCasts_S32x1_S32) shapeCasts_S32_S1x32))))
      shapeCasts_S128x1x128x32_S128x4096) bitsLt_bf16_f32 : FVec Ideal S128x4096 .bf16) (ix2 j (col j' o)) = _
  rw [truncf_apply]
  refine (kron_flatten_apply _ j j' o).trans ?_
  rw [mulf_apply]
  refine (congrArg₂ (· * ·) (?_ : _ = (if j = j' then (1 : EReal) else 0 : EReal))
    (?_ : _ = (U : S32x1.Idx → EReal) (ix2 o (0 : Fin 1)))).trans ?_
  · refine (spread_last_apply _ j j' o).trans ?_
    refine (matrix_on_axes_apply _ j j').trans ?_
    exact eye_apply j j'
  · refine (spread_rows_apply _ j j' o).trans ?_
    refine (row_on_axes_apply _ o).trans ?_
    refine (shapeCast_a_1a_apply _ shapeCasts_S32_S1x32 (0 : Fin 1) o).trans ?_
    exact column_as_vector_apply U o
  · by_cases h : j = j'
    · rw [if_pos h, if_pos h, one_mul]
    · rw [if_neg h, if_neg h, zero_mul]

end Cert.KernelIdeal.HostGlue

end
-- ==== Proof.KernelValue.lean ====
/-
  The kernel's result is the specification's function of its arguments.

  The result buffer ends holding the third launch's output array viewed with its 16384 columns split as 512 by 32.
  At (s, l, p, o) that is the output at column q = 32 p + o, for which q / 4096 = p / 128 and
  q mod 4096 = 32 (p mod 128) + o. The expansion matrix at (j, 32 j' + o) is u(o) when j = j' and zero otherwise, so
  of the sum over the 128 staged rows j only the term j = p mod 128 is left: (the inner product of row l of the first
  projections and row 128 (p / 128) + p mod 128 = p of the second, times 1/16) * u(o); the bias row at 32 j' + o is
  v(o). Multiplying by 1/16 is dividing by 16. No finiteness is used: zero times anything is zero on the extended reals.
-/
import proofs.«147179_j8899172237442_2_alg».proof.Proof.RunMain
import proofs.«147179_j8899172237442_2_alg».proof.Proof.Boundaries
import proofs.«147179_j8899172237442_2_alg».proof.Proof.ArrPair
import proofs.«147179_j8899172237442_2_alg».proof.Proof.HostGlue
import proofs.«147179_j8899172237442_2_alg».proof.Proof.Spec

noncomputable section

open Idealize.ShloMosaic Idealize.ShloMosaic.TcCoe Idealize.SL.Sem

namespace Cert.KernelIdeal.KernelValue

open Cert.KernelIdeal Cert.KernelIdeal.Gen Idealize.ShloMosaic.ValueIdx Cert.PairLinear

variable (m : (ℓ : Loc nD τ sig) → Buf (Elt Ideal) ℓ) (ρ : Dev nD → PrngReg)

/-- The staged row of the second batch that survives: p mod 128. -/
def keptRow (p : Fin 512) : Fin 128 := ⟨p.val % 128, Nat.mod_lt _ (by decide)⟩

theorem lane_wide (p : Fin 512) (o : Fin 32) :
    ArrPair.lane (HostGlue.wideCol p o) = HostGlue.col (keptRow p) o := by
  apply Fin.ext
  show (p.val * 32 + o.val) % 4096 = p.val % 128 * 32 + o.val
  have := p.isLt; have := o.isLt; omega

theorem row_wide (p : Fin 512) (o : Fin 32) : ArrPair.rowAt (HostGlue.wideCol p o) (keptRow p) = p := by
  apply Fin.ext
  show (p.val * 32 + o.val) / 4096 * 128 + p.val % 128 = p.val
  have := p.isLt; have := o.isLt; omega

/-- The result buffer's final contents at (s, l, p, o). -/
theorem value_apply (c : Dev nD) (s : Fin 4) (l p : Fin 512) (o : Fin 32) :
    (W7 m ρ c (Proc.devRef .tc main_v17) : S4x512x512x32.Idx → EReal) (ix4 s l p o)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix4 s l p o) := by
  rw [HostGlue.result_tail]
  have h6 : (W6 m ρ c (Proc.devRef .tc main_v16) : S4x512x16384.Idx → EReal)
      = ArrPair.pairArr (V5 m ρ c main_v0) (V5 m ρ c main_v1) (V5 m ρ c main_v11) (V5 m ρ c main_v15) :=
    (W6_arr m ρ c 4).trans (ArrPair.final (V5 m ρ) c)
  rw [h6, ArrPair.pairArr_apply]
  unfold ArrPair.pairAt
  rw [Boundaries.first_proj, Boundaries.second_proj, lane_wide, HostGlue.tiledBias_apply,
    sum_select _ _ _ (keptRow p) (fun j => HostGlue.expand_apply m ρ c j (keptRow p) o), row_wide]
  unfold G
  rw [result_apply, div16]
  rfl

/-- The result buffer's final contents. -/
theorem value_eq (c : Dev nD) :
    (W7 m ρ c (Proc.devRef .tc main_v17) : S4x512x512x32.Idx → EReal)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨s, l, p, o, rfl⟩ : ∃ (s : Fin 4) (l p : Fin 512) (o : Fin 32), i = ix4 s l p o :=
    ⟨i 0, i 1, i 2, i 3, eq_ix4 i⟩
  exact value_apply m ρ c s l p o

/-- The idealized kernel's run: the result at the specification's function of the arguments, the arguments kept. -/
theorem run : θ_run defs (onTc (τ := τ) (main (F := Ideal))) ⟨m, fun _ => 0, ρ⟩ (fun r => ∀ c : Dev nD,
      r.2.mem ((c.tc : Thread nD τ).loc main_v17) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) : S4x512x512x32.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value_eq m ρ c), (h c).2⟩) (RunMain.run_result m ρ)

end Cert.KernelIdeal.KernelValue

end
-- ==== Proof.RefValue.lean ====
/-
  The reference program's result, read one operation at a time, is the specification function of the ten argument
  arrays: the same expression tree on the extended reals.
-/
import proofs.«147179_j8899172237442_2_alg».proof.Proof.Gen.ReferenceIdeal.Read
import proofs.«147179_j8899172237442_2_alg».proof.Proof.Spec

noncomputable section

namespace Cert.ReferenceIdeal.RefValue

open Cert.ReferenceIdeal Cert.ReferenceIdeal.Read Idealize.ShloMosaic Idealize.ShloMosaic.ValueIdx
open Cert.PairLinear

/-! ## The first batch: normalisation and projection -/

/-- The mean of row l of stack s. -/
theorem v3_eq (x0 : (⟨S4x512x256, .f32⟩ : BufTy).Contents (Elt Ideal)) (s : Fin 4) (l : Fin 512) :
    val_main_v3 (F := Ideal) x0 (ix3 s l (0 : Fin 1)) = mean (rowOf x0 s l) := by
  rw [val_main_v3_apply, val_main_v1_apply, val_main_v0_apply, val_main_v2_apply, val_main_cst_apply,
    val_main_cst_0_apply]
  simp only [Ideal.hostDivf_def, Ideal.ofBits_def, zero_word, zero_add]
  unfold mean rowOf
  refine congrArg (fun t => Ideal.div t c256) (Finset.sum_congr rfl fun k _ => congrArg x0 ?_)
  exact funext fun a => Fin.ext (by match a with | ⟨0, _⟩ => rfl | ⟨1, _⟩ => rfl | ⟨2, _⟩ => rfl)

/-- The deviation from the mean, as the reference forms it for the variance. -/
theorem v5_eq (x0 : (⟨S4x512x256, .f32⟩ : BufTy).Contents (Elt Ideal)) (s : Fin 4) (l : Fin 512) (d : Fin 256) :
    val_main_v5 (F := Ideal) x0 (ix3 s l d) = rowOf x0 s l d - mean (rowOf x0 s l) := by
  rw [val_main_v5_apply, val_main_v4_apply]
  have h : idx_main_v4 (ix3 s l d) = ix3 s l (0 : Fin 1) := funext fun a => Fin.ext (by match a with | ⟨0, _⟩ => rfl | ⟨1, _⟩ => rfl | ⟨2, _⟩ => rfl)
  rw [h, v3_eq, Ideal.subf_def]
  rfl

/-- The variance of row l of stack s. -/
theorem v10_eq (x0 : (⟨S4x512x256, .f32⟩ : BufTy).Contents (Elt Ideal)) (s : Fin 4) (l : Fin 512) :
    val_main_v10 (F := Ideal) x0 (ix3 s l (0 : Fin 1)) = variance (rowOf x0 s l) := by
  rw [val_main_v10_apply, val_main_v8_apply, val_main_v7_apply, val_main_v9_apply, val_main_cst_1_apply,
    val_main_cst_2_apply]
  simp only [Ideal.hostDivf_def, Ideal.ofBits_def, zero_word, zero_add]
  unfold variance
  refine congrArg (fun t => Ideal.div t c256) (Finset.sum_congr rfl fun k _ => ?_)
  have h : idx_main_v7 (idx_main_v8 (ix3 s l (0 : Fin 1))) k = ix3 s l k := funext fun a => Fin.ext (by match a with | ⟨0, _⟩ => rfl | ⟨1, _⟩ => rfl | ⟨2, _⟩ => rfl)
  rw [h, val_main_v6_apply, v5_eq, Ideal.mulf_def]

/-- The deviation from the mean, as the reference forms it again for the normalised row. -/
theorem v12_eq (x0 : (⟨S4x512x256, .f32⟩ : BufTy).Contents (Elt Ideal)) (s : Fin 4) (l : Fin 512) (d : Fin 256) :
    val_main_v12 (F := Ideal) x0 (ix3 s l d) = rowOf x0 s l d - mean (rowOf x0 s l) := by
  rw [val_main_v12_apply, val_main_v11_apply]
  have h : idx_main_v11 (ix3 s l d) = ix3 s l (0 : Fin 1) := funext fun a => Fin.ext (by match a with | ⟨0, _⟩ => rfl | ⟨1, _⟩ => rfl | ⟨2, _⟩ => rfl)
  rw [h, v3_eq, Ideal.subf_def]
  rfl

/-- The reciprocal square root of the variance plus the small constant, spread along the row. -/
theorem v16_eq (x0 : (⟨S4x512x256, .f32⟩ : BufTy).Contents (Elt Ideal)) (s : Fin 4) (l : Fin 512) (d : Fin 256) :
    val_main_v16 (F := Ideal) x0 (ix3 s l d) = Ideal.rsqrt (variance (rowOf x0 s l) + cEps) := by
  rw [val_main_v16_apply]
  have h : idx_main_v16 (ix3 s l d) = ix3 s l (0 : Fin 1) := funext fun a => Fin.ext (by match a with | ⟨0, _⟩ => rfl | ⟨1, _⟩ => rfl | ⟨2, _⟩ => rfl)
  rw [h, val_main_v15_apply, val_main_v14_apply, v10_eq, val_main_v13_apply, val_main_cst_3_apply,
    Ideal.hostUnary_rsqrt_def, Ideal.addf_def, Ideal.ofBits_def]

/-- A length-256 argument spread over every row reads the argument at the column. -/
theorem v19_eq (x2 : (⟨S256, .f32⟩ : BufTy).Contents (Elt Ideal)) (s : Fin 4) (l : Fin 512) (d : Fin 256) :
    val_main_v19 (F := Ideal) x2 (ix3 s l d) = vecOf x2 d := by
  rw [val_main_v19_apply, val_main_v18_apply]
  unfold vecOf
  exact congrArg x2 (funext fun a => Fin.ext (by match a with | ⟨0, _⟩ => rfl))

theorem v22_eq (x3 : (⟨S256, .f32⟩ : BufTy).Contents (Elt Ideal)) (s : Fin 4) (l : Fin 512) (d : Fin 256) :
    val_main_v22 (F := Ideal) x3 (ix3 s l d) = vecOf x3 d := by
  rw [val_main_v22_apply, val_main_v21_apply]
  unfold vecOf
  exact congrArg x3 (funext fun a => Fin.ext (by match a with | ⟨0, _⟩ => rfl))

/-- The normalised row. -/
theorem v23_eq (x0 : (⟨S4x512x256, .f32⟩ : BufTy).Contents (Elt Ideal)) (x2 : (⟨S256, .f32⟩ : BufTy).Contents (Elt Ideal)) (x3 : (⟨S256, .f32⟩ : BufTy).Contents (Elt Ideal)) (s : Fin 4) (l : Fin 512) (d : Fin 256) :
    val_main_v23 (F := Ideal) x0 x2 x3 (ix3 s l d) = normRow (rowOf x0 s l) (vecOf x2) (vecOf x3) d := by
  rw [val_main_v23_apply, val_main_v20_apply, val_main_v17_apply, v12_eq, v16_eq, v19_eq, v22_eq,
    Ideal.addf_def, Ideal.mulf_def, Ideal.mulf_def]
  rfl

/-- The projection of the normalised row on channel c. -/
theorem v24_eq (x0 : (⟨S4x512x256, .f32⟩ : BufTy).Contents (Elt Ideal)) (x2 : (⟨S256, .f32⟩ : BufTy).Contents (Elt Ideal)) (x3 : (⟨S256, .f32⟩ : BufTy).Contents (Elt Ideal)) (x6 : (⟨S16x256, .f32⟩ : BufTy).Contents (Elt Ideal)) (s : Fin 4) (l : Fin 512) (c : Fin 16) :
    val_main_v24 (F := Ideal) x0 x2 x3 x6 (ix3 s l c) = projAt x0 x2 x3 x6 s l c := by
  rw [val_main_v24_apply]
  unfold projAt proj
  refine Finset.sum_congr rfl fun d _ => ?_
  have hl : lidx_main_v24 (ix3 s l c) d = ix3 s l d := funext fun a => Fin.ext (by match a with | ⟨0, _⟩ => rfl | ⟨1, _⟩ => rfl | ⟨2, _⟩ => rfl)
  have hr : ridx_main_v24 (ix3 s l c) d = ix2 c d := funext fun a => Fin.ext (by match a with | ⟨0, _⟩ => rfl | ⟨1, _⟩ => rfl)
  rw [hl, hr, v23_eq]
  rfl

/-! ## The second batch: normalisation and projection -/

/-- The mean of row l of stack s. -/
theorem v28_eq (x1 : (⟨S4x512x256, .f32⟩ : BufTy).Contents (Elt Ideal)) (s : Fin 4) (l : Fin 512) :
    val_main_v28 (F := Ideal) x1 (ix3 s l (0 : Fin 1)) = mean (rowOf x1 s l) := by
  rw [val_main_v28_apply, val_main_v26_apply, val_main_v25_apply, val_main_v27_apply, val_main_cst_4_apply,
    val_main_cst_5_apply]
  simp only [Ideal.hostDivf_def, Ideal.ofBits_def, zero_word, zero_add]
  unfold mean rowOf
  refine congrArg (fun t => Ideal.div t c256) (Finset.sum_congr rfl fun k _ => congrArg x1 ?_)
  exact funext fun a => Fin.ext (by match a with | ⟨0, _⟩ => rfl | ⟨1, _⟩ => rfl | ⟨2, _⟩ => rfl)

/-- The deviation from the mean, as the reference forms it for the variance. -/
theorem v30_eq (x1 : (⟨S4x512x256, .f32⟩ : BufTy).Contents (Elt Ideal)) (s : Fin 4) (l : Fin 512) (d : Fin 256) :
    val_main_v30 (F := Ideal) x1 (ix3 s l d) = rowOf x1 s l d - mean (rowOf x1 s l) := by
  rw [val_main_v30_apply, val_main_v29_apply]
  have h : idx_main_v29 (ix3 s l d) = ix3 s l (0 : Fin 1) := funext fun a => Fin.ext (by match a with | ⟨0, _⟩ => rfl | ⟨1, _⟩ => rfl | ⟨2, _⟩ => rfl)
  rw [h, v28_eq, Ideal.subf_def]
  rfl

/-- The variance of row l of stack s. -/
theorem v35_eq (x1 : (⟨S4x512x256, .f32⟩ : BufTy).Contents (Elt Ideal)) (s : Fin 4) (l : Fin 512) :
    val_main_v35 (F := Ideal) x1 (ix3 s l (0 : Fin 1)) = variance (rowOf x1 s l) := by
  rw [val_main_v35_apply, val_main_v33_apply, val_main_v32_apply, val_main_v34_apply, val_main_cst_6_apply,
    val_main_cst_7_apply]
  simp only [Ideal.hostDivf_def, Ideal.ofBits_def, zero_word, zero_add]
  unfold variance
  refine congrArg (fun t => Ideal.div t c256) (Finset.sum_congr rfl fun k _ => ?_)
  have h : idx_main_v32 (idx_main_v33 (ix3 s l (0 : Fin 1))) k = ix3 s l k := funext fun a => Fin.ext (by match a with | ⟨0, _⟩ => rfl | ⟨1, _⟩ => rfl | ⟨2, _⟩ => rfl)
  rw [h, val_main_v31_apply, v30_eq, Ideal.mulf_def]

/-- The deviation from the mean, as the reference forms it again for the normalised row. -/
theorem v37_eq (x1 : (⟨S4x512x256, .f32⟩ : BufTy).Contents (Elt Ideal)) (s : Fin 4) (l : Fin 512) (d : Fin 256) :
    val_main_v37 (F := Ideal) x1 (ix3 s l d) = rowOf x1 s l d - mean (rowOf x1 s l) := by
  rw [val_main_v37_apply, val_main_v36_apply]
  have h : idx_main_v36 (ix3 s l d) = ix3 s l (0 : Fin 1) := funext fun a => Fin.ext (by match a with | ⟨0, _⟩ => rfl | ⟨1, _⟩ => rfl | ⟨2, _⟩ => rfl)
  rw [h, v28_eq, Ideal.subf_def]
  rfl

/-- The reciprocal square root of the variance plus the small constant, spread along the row. -/
theorem v41_eq (x1 : (⟨S4x512x256, .f32⟩ : BufTy).Contents (Elt Ideal)) (s : Fin 4) (l : Fin 512) (d : Fin 256) :
    val_main_v41 (F := Ideal) x1 (ix3 s l d) = Ideal.rsqrt (variance (rowOf x1 s l) + cEps) := by
  rw [val_main_v41_apply]
  have h : idx_main_v41 (ix3 s l d) = ix3 s l (0 : Fin 1) := funext fun a => Fin.ext (by match a with | ⟨0, _⟩ => rfl | ⟨1, _⟩ => rfl | ⟨2, _⟩ => rfl)
  rw [h, val_main_v40_apply, val_main_v39_apply, v35_eq, val_main_v38_apply, val_main_cst_8_apply,
    Ideal.hostUnary_rsqrt_def, Ideal.addf_def, Ideal.ofBits_def]

/-- A length-256 argument spread over every row reads the argument at the column. -/
theorem v44_eq (x4 : (⟨S256, .f32⟩ : BufTy).Contents (Elt Ideal)) (s : Fin 4) (l : Fin 512) (d : Fin 256) :
    val_main_v44 (F := Ideal) x4 (ix3 s l d) = vecOf x4 d := by
  rw [val_main_v44_apply, val_main_v43_apply]
  unfold vecOf
  exact congrArg x4 (funext fun a => Fin.ext (by match a with | ⟨0, _⟩ => rfl))

theorem v47_eq (x5 : (⟨S256, .f32⟩ : BufTy).Contents (Elt Ideal)) (s : Fin 4) (l : Fin 512) (d : Fin 256) :
    val_main_v47 (F := Ideal) x5 (ix3 s l d) = vecOf x5 d := by
  rw [val_main_v47_apply, val_main_v46_apply]
  unfold vecOf
  exact congrArg x5 (funext fun a => Fin.ext (by match a with | ⟨0, _⟩ => rfl))

/-- The normalised row. -/
theorem v48_eq (x1 : (⟨S4x512x256, .f32⟩ : BufTy).Contents (Elt Ideal)) (x4 : (⟨S256, .f32⟩ : BufTy).Contents (Elt Ideal)) (x5 : (⟨S256, .f32⟩ : BufTy).Contents (Elt Ideal)) (s : Fin 4) (l : Fin 512) (d : Fin 256) :
    val_main_v48 (F := Ideal) x1 x4 x5 (ix3 s l d) = normRow (rowOf x1 s l) (vecOf x4) (vecOf x5) d := by
  rw [val_main_v48_apply, val_main_v45_apply, val_main_v42_apply, v37_eq, v41_eq, v44_eq, v47_eq,
    Ideal.addf_def, Ideal.mulf_def, Ideal.mulf_def]
  rfl

/-- The projection of the normalised row on channel c. -/
theorem v49_eq (x1 : (⟨S4x512x256, .f32⟩ : BufTy).Contents (Elt Ideal)) (x4 : (⟨S256, .f32⟩ : BufTy).Contents (Elt Ideal)) (x5 : (⟨S256, .f32⟩ : BufTy).Contents (Elt Ideal)) (x7 : (⟨S16x256, .f32⟩ : BufTy).Contents (Elt Ideal)) (s : Fin 4) (l : Fin 512) (c : Fin 16) :
    val_main_v49 (F := Ideal) x1 x4 x5 x7 (ix3 s l c) = projAt x1 x4 x5 x7 s l c := by
  rw [val_main_v49_apply]
  unfold projAt proj
  refine Finset.sum_congr rfl fun d _ => ?_
  have hl : lidx_main_v49 (ix3 s l c) d = ix3 s l d := funext fun a => Fin.ext (by match a with | ⟨0, _⟩ => rfl | ⟨1, _⟩ => rfl | ⟨2, _⟩ => rfl)
  have hr : ridx_main_v49 (ix3 s l c) d = ix2 c d := funext fun a => Fin.ext (by match a with | ⟨0, _⟩ => rfl | ⟨1, _⟩ => rfl)
  rw [hl, hr, v48_eq]
  rfl

/-! ## The scores and the result -/

/-- The inner product over the 16 channels of the two projections. -/
theorem v50_eq (x0 x1 : (⟨S4x512x256, .f32⟩ : BufTy).Contents (Elt Ideal)) (x2 x3 x4 x5 : (⟨S256, .f32⟩ : BufTy).Contents (Elt Ideal))
    (x6 x7 : (⟨S16x256, .f32⟩ : BufTy).Contents (Elt Ideal)) (s : Fin 4) (l p : Fin 512) :
    val_main_v50 (F := Ideal) x0 x1 x2 x3 x4 x5 x6 x7 (ix3 s l p)
      = dot16 (projArr x0 x2 x3 x6) (projArr x1 x4 x5 x7) s l p := by
  rw [val_main_v50_apply]
  unfold dot16
  refine Finset.sum_congr rfl fun c _ => ?_
  have hl : lidx_main_v50 (ix3 s l p) c = ix3 s l c :=
    funext fun a => Fin.ext (by match a with | ⟨0, _⟩ => rfl | ⟨1, _⟩ => rfl | ⟨2, _⟩ => rfl)
  have hr : ridx_main_v50 (ix3 s l p) c = ix3 s p c :=
    funext fun a => Fin.ext (by match a with | ⟨0, _⟩ => rfl | ⟨1, _⟩ => rfl | ⟨2, _⟩ => rfl)
  rw [hl, hr, v24_eq, v49_eq, projArr_apply, projArr_apply]

/-- The result at literal coordinates. -/
theorem v61_eq (x0 x1 : (⟨S4x512x256, .f32⟩ : BufTy).Contents (Elt Ideal)) (x2 x3 x4 x5 : (⟨S256, .f32⟩ : BufTy).Contents (Elt Ideal))
    (x6 x7 : (⟨S16x256, .f32⟩ : BufTy).Contents (Elt Ideal))
    (x8 : (⟨S32x1, .f32⟩ : BufTy).Contents (Elt Ideal)) (x9 : (⟨S32, .f32⟩ : BufTy).Contents (Elt Ideal)) (s : Fin 4) (l p : Fin 512) (o : Fin 32) :
    val_main_v61 (F := Ideal) x0 x1 x2 x3 x4 x5 x6 x7 x8 x9 (ix4 s l p o)
      = G x0 x1 x2 x3 x4 x5 x6 x7 x8 x9 (ix4 s l p o) := by
  unfold G
  rw [result_apply, val_main_v61_apply, val_main_v58_apply, val_main_v56_apply, val_main_v53_apply, val_main_v52_apply,
    val_main_v51_apply, val_main_cst_9_apply, val_main_v57_apply, val_main_v55_apply, val_main_v54_apply,
    val_main_v60_apply, val_main_v59_apply]
  have h3 : idx_main_v53 (idx_main_v56 (ix4 s l p o)) = ix3 s l p :=
    funext fun a => Fin.ext (by match a with | ⟨0, _⟩ => rfl | ⟨1, _⟩ => rfl | ⟨2, _⟩ => rfl)
  have h8 : idx_main_v54 (idx_main_v55 (idx_main_v57 (ix4 s l p o))) = ix2 o (0 : Fin 1) :=
    funext fun a => Fin.ext (by match a with | ⟨0, _⟩ => exact Nat.div_one _ | ⟨1, _⟩ => rfl)
  have h9 : idx_main_v59 (idx_main_v60 (ix4 s l p o)) = ix1 o :=
    funext fun a => Fin.ext (by match a with | ⟨0, _⟩ => rfl)
  rw [h3, h8, h9, v50_eq, Ideal.addf_def, Ideal.mulf_def, Ideal.hostDivf_def, Ideal.ofBits_def]

/-- The reference program's result is the specification function of its ten arguments. -/
theorem reference_eq (x0 x1 : (⟨S4x512x256, .f32⟩ : BufTy).Contents (Elt Ideal)) (x2 x3 x4 x5 : (⟨S256, .f32⟩ : BufTy).Contents (Elt Ideal))
    (x6 x7 : (⟨S16x256, .f32⟩ : BufTy).Contents (Elt Ideal))
    (x8 : (⟨S32x1, .f32⟩ : BufTy).Contents (Elt Ideal)) (x9 : (⟨S32, .f32⟩ : BufTy).Contents (Elt Ideal)) :
    val_main_v61 (F := Ideal) x0 x1 x2 x3 x4 x5 x6 x7 x8 x9 = Cert.PairLinear.G x0 x1 x2 x3 x4 x5 x6 x7 x8 x9 := by
  funext i
  rw [eq_ix4 i]
  exact v61_eq x0 x1 x2 x3 x4 x5 x6 x7 x8 x9 (i 0) (i 1) (i 2) (i 3)

end Cert.ReferenceIdeal.RefValue

end
-- ==== Proof.lean ====
/-
  The certificate's five claims.

  Both programs normalise the rows of two batches, project them to 16 channels, take for every pair of rows of one
  stack the mean over the channels of the products of their projections, and send it through a linear map of one
  input and 32 outputs. The kernel does the normalisation and projection in two launches, and in a third multiplies
  the pair scores (times 1/16) by a block-diagonal expansion of the 32 output weights so that each output lands in its
  own column, adds the tiled bias, and finally views the 16384 columns as 512 by 32. The reference divides by 16 and
  multiplies by the weights directly. On the extended reals the two results are one function of the arguments
  (Proof/Spec.lean): the expansion's off-diagonal zeros annihilate every other term of the third launch's sums, and
  multiplying by 1/16 is dividing by 16. The kernel's value is read off the run of its three launches and the host
  operations between them (Proof/RunMain.lean, Proof/ArrNorm0.lean, Proof/ArrNorm1.lean, Proof/ArrPair.lean,
  Proof/HostGlue.lean, Proof/Boundaries.lean, Proof/KernelValue.lean); the reference's from its run read one
  operation at a time (Proof/RefValue.lean). Nothing was rewritten when the kernel was idealized, so preservation
  asks nothing.
-/
import proofs.«147179_j8899172237442_2_alg».proof.Defs
import proofs.«147179_j8899172237442_2_alg».proof.Proof.Gen.Kernel
import proofs.«147179_j8899172237442_2_alg».proof.Proof.Gen.Kernel.Skeleton
import proofs.«147179_j8899172237442_2_alg».proof.Proof.Gen.Kernel.Launch
import proofs.«147179_j8899172237442_2_alg».proof.Proof.Gen.Kernel.Points
import proofs.«147179_j8899172237442_2_alg».proof.Proof.Gen.Kernel.Frame
import proofs.«147179_j8899172237442_2_alg».proof.Proof.Gen.KernelIdeal
import proofs.«147179_j8899172237442_2_alg».proof.Proof.Gen.KernelIdeal.Skeleton
import proofs.«147179_j8899172237442_2_alg».proof.Proof.Gen.KernelIdeal.Launch
import proofs.«147179_j8899172237442_2_alg».proof.Proof.Gen.KernelIdeal.Points
import proofs.«147179_j8899172237442_2_alg».proof.Proof.Gen.KernelIdeal.Frame
import proofs.«147179_j8899172237442_2_alg».proof.Proof.Gen.ReferenceIdeal
import proofs.«147179_j8899172237442_2_alg».proof.Proof.Gen.Pre_finite_inputs
import proofs.«147179_j8899172237442_2_alg».proof.Proof.Gen.ReferenceIdeal.Run
import proofs.«147179_j8899172237442_2_alg».proof.Proof.Gen.ReferenceIdeal.Read
import proofs.«147179_j8899172237442_2_alg».proof.Proof.KernelValue
import proofs.«147179_j8899172237442_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's function of the arguments in their result buffers. -/
theorem algebraic : Cert.algebraic_KernelIdeal_ReferenceIdeal := by
  intro m ρ m' ρ' _ hagree
  refine ⟨fun c => Cert.PairLinear.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.ReferenceIdeal.RefValue.reference_eq]
  obtain ⟨a0, a1, a2, a3, a4, a5, a6, a7, a8, a9⟩ := hagree c
  rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
